-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S2x800000 : Shape := ⟨2, ![2, 800000]⟩
abbrev S96x64 : Shape := ⟨2, ![96, 64]⟩
abbrev S64 : Shape := ⟨1, ![64]⟩
abbrev S64x64 : Shape := ⟨2, ![64, 64]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S96x64 : S_.BroadcastsInDim S96x64 (![] : Fin 0 → Fin S96x64.rank)
  reducesTo_S96x64_S_d0_1 : S96x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64x64 .f32) (main_arg6 : FVec F S64x64 .f32) (main_arg7 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x96 .f32) (main_arg1 : IVec S2x800000 32) (main_arg2 : FVec F S96x64 .f32) (main_arg3 : FVec F S96x64 .f32) (main_arg4 : FVec F S64 .f32) (main_arg5 : FVec F S64x64 .f32) (main_arg6 : FVec F S64x64 .f32) (main_arg7 : FVec F S64 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S96x64 .f32 := Host.absf main_arg2
  let main_cst_0 : FVec F S_ .f32 := constant S_ .f32 0x7F800000#32
  let main_v5 : FVec F S96x64 .f32 := broadcastInDim S96x64 ![] bcast_S_S96x64 main_cst_0
  let main_v6 : IVec S96x64 1 := cmpf .olt main_v4 main_v5
  let main_c_1 : IVec S_ 1 := constantI S_ 1 1#1
  let main_v7 : IVec S_ 1 := (fun x v => Host.reduce IntOp.andi x v reducesTo_S96x64_S_d0_1 h_S_) main_v6 main_c_1
  let main_v8 : IVec S_ 1 := andi main_v3 main_v7
  let main_v9 : FVec F S96x64 .f32 := Host.absf main_arg3
  let main_cst_2 : FVec F S_ .f32 := constant S_ .f32 0x7F800000#32
  let main_v10 : FVec F S96x64 .f32 := broadcastInDim S96x64 ![] bcast_S_S96x64 main_cst_2
  let main_v11 : IVec S96x64 1 := cmpf .olt main_v9 main_v10
  let main_c_3 : IVec S_ 1 := constantI S_ 1 1#1
  let main_v12 : IVec S_ 1 := (fun x v => Host.reduce IntOp.andi x v reducesTo_S96x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_v13 main_v16
-- ==== Kernel.lean ====
abbrev S50000x96 : Shape := ⟨2, ![50000, 96]⟩
abbrev S2x800000 : Shape := ⟨2, ![2, 800000]⟩
abbrev S96x64 : Shape := ⟨2, ![96, 64]⟩
abbrev S64 : Shape := ⟨1, ![64]⟩
abbrev S64x64 : Shape := ⟨2, ![64, 64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x64 : Shape := ⟨2, ![1, 64]⟩
abbrev S50000x64 : Shape := ⟨2, ![50000, 64]⟩
abbrev S5000x96 : Shape := ⟨2, ![5000, 96]⟩
abbrev S5000x64 : Shape := ⟨2, ![5000, 64]⟩
abbrev S800000x64 : Shape := ⟨2, ![800000, 64]⟩
abbrev S5000x1 : Shape := ⟨2, ![5000, 1]⟩

abbrev nBuf : Space → Nat
  | .hbm => 57
  | .vmem => 28
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S96x64, .f32⟩
  | .hbm, ⟨3, _⟩ => ⟨S96x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S1x64, .f32⟩
  | .hbm, ⟨26, _⟩ => ⟨S50000x64, .f32⟩
  | .hbm, ⟨27, _⟩ => ⟨S50000x64, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x64, .f32⟩
  | .hbm, ⟨37, _⟩ => ⟨S_, .f32⟩
  | .hbm, ⟨38, _⟩ => ⟨S50000x64, .f32⟩
  | .hbm, ⟨39, _⟩ => ⟨S800000x1, .i32⟩
  | .hbm, ⟨40, _⟩ => ⟨S50000x64, .f32⟩
  | .hbm, ⟨41, _⟩ => ⟨S50000x64, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S800000x64, .f32⟩
  | .hbm, ⟨51, _⟩ => ⟨S_, .f32⟩
  | .hbm, ⟨52, _⟩ => ⟨S50000x64, .f32⟩
  | .hbm, ⟨53, _⟩ => ⟨S800000x1, .i32⟩
  | .hbm, ⟨54, _⟩ => ⟨S50000x64, .f32⟩
  | .hbm, ⟨55, _⟩ => ⟨S1x64, .f32⟩
  | .hbm, ⟨56, _⟩ => ⟨S50000x64, .f32⟩
  | .local _ .vmem, ⟨0, _⟩ => ⟨S5000x96, .f32⟩
  | .local _ .vmem, ⟨1, _⟩ => ⟨S5000x96, .f32⟩
  | .local _ .vmem, ⟨2, _⟩ => ⟨S96x64, .f32⟩
  | .local _ .vmem, ⟨3, _⟩ => ⟨S96x64, .f32⟩
  | .local _ .vmem, ⟨4, _⟩ => ⟨S1x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x1, .f32⟩
  | .local _ .vmem, ⟨12, _⟩ => ⟨S5000x1, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x1, .f32⟩
  | .local _ .vmem, ⟨20, _⟩ => ⟨S5000x1, .f32⟩
  | .local _ .vmem, ⟨21, _⟩ => ⟨S5000x64, .f32⟩
  | .local _ .vmem, ⟨22, _⟩ => ⟨S5000x64, .f32⟩
  | .local _ .vmem, ⟨23, _⟩ => ⟨S64x64, .f32⟩
  | .local _ .vmem, ⟨24, _⟩ => ⟨S64x64, .f32⟩
  | .local _ .vmem, ⟨25, _⟩ => ⟨S1x64, .f32⟩
  | .local _ .vmem, ⟨26, _⟩ => ⟨S5000x64, .f32⟩
  | .local _ .vmem, ⟨27, _⟩ => ⟨S5000x64, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14_0 : Ref sig .tc := ⟨.hbm, 26, rfl⟩
abbrev main_v14_1 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_c_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem6_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S96x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  shapeCasts_S64_S1x64 : S64.ShapeCasts S1x64
  inb_S5000x96_S5000x96_0_0 : ∀ a, (![0, 0] : Fin 2 → Nat) a + S5000x96.size a ≤ S5000x96.size a
  h_S5000x96 : 0 < S5000x96.numel
  bitsLt_bf16_f32 : FTy.bits .bf16 < FTy.bits .f32
  inb_S96x64_S96x64_0_0 : ∀ a, (![0, 0] : Fin 2 → Nat) a + S96x64.size a ≤ S96x64.size a
  h_S96x64 : 0 < S96x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S_S50000x64 : S_.BroadcastsInDim S50000x64 (![] : Fin 0 → Fin S50000x64.rank)
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S64x64_S64x64_0_0 : ∀ a, (![0, 0] : Fin 2 → Nat) a + S64x64.size a ≤ S64x64.size a
  h_S64x64 : 0 < S64x64.numel
  scatter_S50000_S800000x1_S800000_n_0_0_1_wf : ScatterDims.WF S50000 S800000x1 S800000 [] [0] [0] 1
  dot_S5000x96_S96x64_S5000x64_1_0_0_1_n_n_wf : DotDims.WF S5000x96 S96x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x96.size a ≤ S50000x96.size a
  hwx0_0 : ∀ i : grid0.Coords, EltTy.bits .f32 = 32 ∨ (Rect.block (s := S50000x96) S5000x96.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S96x64.size a ≤ S96x64.size a
  hwx0_1 : ∀ i : grid0.Coords, EltTy.bits .f32 = 32 ∨ (Rect.block (s := S96x64) S96x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S96x64.size a ≤ S96x64.size a
  hwx0_2 : ∀ i : grid0.Coords, EltTy.bits .f32 = 32 ∨ (Rect.block (s := S96x64) S96x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S50000x64.size a
  hwx0_4 : ∀ i : grid0.Coords, EltTy.bits .f32 = 32 ∨ (Rect.block (s := S50000x64) S5000x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .f32 = 32 ∨ (Rect.block (s := S50000x64) S5000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S50000x64.size a
  hwx2_6 : ∀ i : grid2.Coords, EltTy.bits .f32 = 32 ∨ (Rect.block (s := S50000x64) S5000x64.size (cc2_transform_6 i) (hinb2_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S5000x96_S96x64_S5000x64_1_0_0_1_n_n : DotDims S5000x96 S96x64 S5000x64 where
  lhsContracting := [1]
  rhsContracting := [0]
  lhsNonContracting := [0]
  rhsNonContracting := [1]
  lhsBatch := []
  rhsBatch := []
  wf := dot_S5000x96_S96x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S96x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S96x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14_0) S5000x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v14_1) S5000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v24) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14_1) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v25) S5000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v35) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v25) S5000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg5) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg6) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v36) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v37) S5000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x96 : Shape := ⟨2, ![50000, 96]⟩
abbrev S2x800000 : Shape := ⟨2, ![2, 800000]⟩
abbrev S96x64 : Shape := ⟨2, ![96, 64]⟩
abbrev S64 : Shape := ⟨1, ![64]⟩
abbrev S64x64 : Shape := ⟨2, ![64, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x96 : Shape := ⟨2, ![800000, 96]⟩
abbrev S50000 : Shape := ⟨1, ![50000]⟩
abbrev S50000x1 : Shape := ⟨2, ![50000, 1]⟩
abbrev S50000x64 : Shape := ⟨2, ![50000, 64]⟩
abbrev S1x64 : Shape := ⟨2, ![1, 64]⟩
abbrev S800000x64 : Shape := ⟨2, ![800000, 64]⟩

abbrev nBuf : Space → Nat
  | .hbm => 77
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S2x800000, .i32⟩
  | .hbm, ⟨2, _⟩ => ⟨S96x64, .f32⟩
  | .hbm, ⟨3, _⟩ => ⟨S96x64, .f32⟩
  | .hbm, ⟨4, _⟩ => ⟨S64, .f32⟩
  | .hbm, ⟨5, _⟩ => ⟨S64x64, .f32⟩
  | .hbm, ⟨6, _⟩ => ⟨S64x64, .f32⟩
  | .hbm, ⟨7, _⟩ => ⟨S64, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x96, .f32⟩
  | .hbm, ⟨21, _⟩ => ⟨S_, .f32⟩
  | .hbm, ⟨22, _⟩ => ⟨S50000x96, .f32⟩
  | .hbm, ⟨23, _⟩ => ⟨S800000x1, .i32⟩
  | .hbm, ⟨24, _⟩ => ⟨S50000x96, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x96, .f32⟩
  | .hbm, ⟨36, _⟩ => ⟨S50000x96, .f32⟩
  | .hbm, ⟨37, _⟩ => ⟨S50000x64, .f32⟩
  | .hbm, ⟨38, _⟩ => ⟨S50000x64, .f32⟩
  | .hbm, ⟨39, _⟩ => ⟨S50000x64, .f32⟩
  | .hbm, ⟨40, _⟩ => ⟨S1x64, .f32⟩
  | .hbm, ⟨41, _⟩ => ⟨S50000x64, .f32⟩
  | .hbm, ⟨42, _⟩ => ⟨S50000x64, .f32⟩
  | .hbm, ⟨43, _⟩ => ⟨S_, .f32⟩
  | .hbm, ⟨44, _⟩ => ⟨S50000x64, .f32⟩
  | .hbm, ⟨45, _⟩ => ⟨S50000x64, .f32⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x64, .f32⟩
  | .hbm, ⟨55, _⟩ => ⟨S_, .f32⟩
  | .hbm, ⟨56, _⟩ => ⟨S50000x64, .f32⟩
  | .hbm, ⟨57, _⟩ => ⟨S800000x1, .i32⟩
  | .hbm, ⟨58, _⟩ => ⟨S50000x64, .f32⟩
  | .hbm, ⟨59, _⟩ => ⟨S_, .f32⟩
  | .hbm, ⟨60, _⟩ => ⟨S800000, .f32⟩
  | .hbm, ⟨61, _⟩ => ⟨S_, .f32⟩
  | .hbm, ⟨62, _⟩ => ⟨S50000, .f32⟩
  | .hbm, ⟨63, _⟩ => ⟨S800000x1, .i32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000x1, .f32⟩
  | .hbm, ⟨69, _⟩ => ⟨S50000x64, .f32⟩
  | .hbm, ⟨70, _⟩ => ⟨S50000x64, .f32⟩
  | .hbm, ⟨71, _⟩ => ⟨S50000x64, .f32⟩
  | .hbm, ⟨72, _⟩ => ⟨S50000x64, .f32⟩
  | .hbm, ⟨73, _⟩ => ⟨S50000x64, .f32⟩
  | .hbm, ⟨74, _⟩ => ⟨S1x64, .f32⟩
  | .hbm, ⟨75, _⟩ => ⟨S50000x64, .f32⟩
  | .hbm, ⟨76, _⟩ => ⟨S50000x64, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x96 : S_.BroadcastsInDim S50000x96 (![] : Fin 0 → Fin S50000x96.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x96_0_1 : S50000x1.BroadcastsInDim S50000x96 (![0, 1] : Fin 2 → Fin S50000x96.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  scatter_S50000_S800000x1_S800000_n_0_0_1_wf : ScatterDims.WF S50000 S800000x1 S800000 [] [0] [0] 1
  dot_S50000x96_S96x64_S50000x64_1_0_0_1_n_n_wf : DotDims.WF S50000x96 S96x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x64_S50000x64_1_0_0_1_n_n_wf : DotDims.WF S50000x64 S64x64 S50000x64 [1] [0] [0] [1] [] []

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x96_S96x64_S50000x64_1_0_0_1_n_n : DotDims S50000x96 S96x64 S50000x64 where
  lhsContracting := [1]
  rhsContracting := [0]
  lhsNonContracting := [0]
  rhsNonContracting := [1]
  lhsBatch := []
  rhsBatch := []
  wf := dot_S50000x96_S96x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.KernelRun.lean ====
/-
  The idealized kernel's run with its result named.

  The program is three tiled launches among stretches of host operations. Every weakly fair execution terminates
  without a fault, and at the end the result array holds what the last launch's write-backs leave in it — the
  contents of the last boundary of the run, a fold of the host stretches and the launches' write-backs over the
  launch memory — while the argument arrays are as launched. The launch over the segments is the one the frame uses;
  here the final state is read at the result buffer as well as at the arguments.
-/
import proofs.«100753_j39170101740217_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result array ends at the last boundary's contents
    and the arguments end as launched. -/
theorem run_last : θ_run defs (onTc (τ := τ) (main (F := F))) ⟨m, fun _ => 0, ρ⟩ (fun r => ∀ c : Dev nD,
      r.2.mem ((c.tc : Thread nD τ).loc main_v37) = W6 m ρ c (Proc.devRef .tc main_v37)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v37 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.KernelIdeal.RunValue

end
-- ==== Proof.LibMatmulAt.lean ====
/-
  A plain matrix product read at an element.

  A contraction whose dimension numbers are those of an [R, K] × [K, C] matrix product (the left operand contracted on
  its axis 1, the right on its axis 0, no batch axis), accumulated into the zero splat, read at the element (p, q) is
  ∑ k, l(p, k) * r(k, q) over the extended reals. The statement is over ANY record of dimension numbers with those six
  lists, so that it applies to every record of that kind a program names, whatever its extents.
-/
import Idealize.ShloMosaic.PureOps.Ideal.Laws
import Idealize.ShloMosaic.Lib.ValueIdx

noncomputable section

namespace Cert.LibMatmulAt

open Idealize.ShloMosaic Idealize.ShloMosaic.ValueIdx

/-- The dimension numbers of an [R, K] × [K, C] matrix product, with its well-formedness proof a variable: every record
    with those six lists is this one. -/
abbrev plainOf {R K C : ℕ}
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ :=
  ⟨[1], [0], [0], [1], [], [], wf⟩

/-- The sum over the one-axis contraction index, re-indexed by that axis's coordinate, reads the left operand at (p, k)
    and the right operand at (k, q). -/
theorem plainOf_sum {R K C : ℕ} (wf : DotDims.WF ⟨2, ![R, K]⟩ ⟨2, ![K, C]⟩ ⟨2, ![R, C]⟩ [1] [0] [0] [1] [] [])
    (l : (⟨2, ![R, K]⟩ : Shape).Idx → EReal) (r : (⟨2, ![K, C]⟩ : Shape).Idx → EReal) (p : Fin R) (q : Fin C) :
    (∑ k : (plainOf wf).contr.Idx, l ((plainOf wf).lhsIdx (ix2 p q) k) * r ((plainOf wf).rhsIdx (ix2 p q) k))
      = ∑ k : Fin K, l (ix2 p k) * r (ix2 k q) := by
  have l0 : ∀ kk : (plainOf wf).contr.Idx, ((plainOf wf).lhsIdx (ix2 p q) kk 0).val = p.val := fun kk => by
    unfold DotDims.lhsIdx
    rw [dif_neg (show ¬(0 : Fin (⟨2, ![R, K]⟩ : Shape).rank) ∈ (plainOf wf).lhsBatch from List.not_mem_nil),
      dif_pos (show (0 : Fin (⟨2, ![R, K]⟩ : Shape).rank) ∈ (plainOf wf).lhsNonContracting from List.mem_singleton.mpr rfl)]
    rfl
  have r1 : ∀ kk : (plainOf wf).contr.Idx, ((plainOf wf).rhsIdx (ix2 p q) kk 1).val = q.val := fun kk => by
    unfold DotDims.rhsIdx
    rw [dif_neg (show ¬(1 : Fin (⟨2, ![K, C]⟩ : Shape).rank) ∈ (plainOf wf).rhsBatch from List.not_mem_nil),
      dif_pos (show (1 : Fin (⟨2, ![K, C]⟩ : Shape).rank) ∈ (plainOf wf).rhsNonContracting from List.mem_singleton.mpr rfl)]
    rfl
  rw [← Equiv.sum_comp (contrEquiv1 (plainOf wf) K rfl rfl).symm]
  refine Finset.sum_congr rfl fun k _ => ?_
  have hk := contrEquiv1_symm_val (plainOf wf) K rfl rfl k
  have el : (plainOf wf).lhsIdx (ix2 p q) ((contrEquiv1 (plainOf wf) K rfl rfl).symm k) = ix2 p k :=
    funext fun a => Fin.ext (by
      match a with
      | ⟨0, _⟩ => exact l0 _
      | ⟨1, _⟩ => exact ((plainOf wf).lhsIdx_val_of_single rfl _ _).trans hk)
  have er : (plainOf wf).rhsIdx (ix2 p q) ((contrEquiv1 (plainOf wf) K rfl rfl).symm k) = ix2 k q :=
    funext fun a => Fin.ext (by
      match a with
      | ⟨0, _⟩ => exact ((plainOf wf).rhsIdx_val_of_single rfl _ _).trans hk
      | ⟨1, _⟩ => exact r1 _)
  rw [el, er]

/-- A matrix product into the zero accumulator, for any record of dimension numbers with the six lists of an
    [R, K] × [K, C] product, read at (p, q): the sum over k of the left operand at (p, k) times the right at (k, q). -/
theorem matmul_zero_apply {R K C : ℕ} {φ₁ φ₂ : FTy} (D : DotDims ⟨2, ![R, K]⟩ ⟨2, ![K, C]⟩ ⟨2, ![R, C]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![R, K]⟩ φ₁) (r : FVec Ideal ⟨2, ![K, C]⟩ φ₂)
    (p : Fin R) (q : Fin C) :
    matmul D prec l r (constant (F := Ideal) ⟨2, ![R, C]⟩ .f32 0x00000000#32) (ix2 p q)
      = ∑ k : Fin K, l (ix2 p k) * r (ix2 k q) := by
  obtain ⟨lc, rc, ln, rn, lb, rb, wf⟩ := D
  dsimp only at hlc hrc hln hrn hlb hrb
  subst hlc hrc hln hrn hlb hrb
  exact (Ideal.matmul_constant_zero_apply (plainOf wf) prec l r (ix2 p q)).trans (plainOf_sum wf l r p q)

end Cert.LibMatmulAt

end
-- ==== Proof.LibColumn.lean ====
/-
  Columns and rows of small shapes read at an index.

  A column `[a, 1]` stretched along its unit axis to `[a, b]` reads, at `(p, c)`, its entry `(p, 0)`; a row
  `[1, b]` stretched to `[a, b]` reads its entry `(0, c)`; a vector `[a]` set up as a column `[a, 1]` (by a cast, or by
  a broadcast that names its one axis) or as a row `[1, a]` reads its entry `p`; a scalar stretched to any shape reads
  its one entry.  These are the host's `broadcast_in_dim` and the vector unit's `broadcast` / `shape_cast` in the
  forms a "keep the axis" reduction or a bias produces.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- A column `[a, 1]` broadcast (vector unit) to `[a, b]` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` broadcast (host) along axes `[0, 1]` to `[a, b]` reads, at `(p, c)`, the column's entry `p`. -/
theorem bcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A row `[1, b]` broadcast (host) along axes `[0, 1]` to `[a, b]` reads, at `(p, c)`, the row's entry `c`. -/
theorem bcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[b]` broadcast (host) along axis `[1]` to a row `[1, b]` reads, at `(u, c)`, the vector's entry `c`. -/
theorem bcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A vector `[a]` broadcast (host) along axis `[0]` to a column `[a, 1]` reads, at `(p, u)`, the vector's entry `p`. -/
theorem bcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply ![0] h v (ix2 p u) (ix1 p) fun ax => ?_
  match ax with
  | ⟨0, _⟩ =>
    show p.val = if a = 1 then 0 else p.val
    split
    · have := p.isLt; omega
    · rfl

/-- A vector `[a]` cast to a column `[a, 1]` reads, at `(p, u)`, the vector's entry `p`. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu]; omega)

/-- So the cast of a vector to a column and its broadcast to a column are one array. -/
theorem shapeCast_a_a1_eq_bcastInDim {a : ℕ} (v : (⟨1, ![a]⟩ : Shape).Idx → α)
    (h : (⟨1, ![a]⟩ : Shape).ShapeCasts ⟨2, ![a, 1]⟩) (h' : (⟨1, ![a]⟩ : Shape).BroadcastsInDim ⟨2, ![a, 1]⟩ ![0]) :
    shapeCast ⟨2, ![a, 1]⟩ v h = broadcastInDim ⟨2, ![a, 1]⟩ ![0] h' v := by
  funext j
  obtain ⟨p, u, rfl⟩ : ∃ (p : Fin a) (u : Fin 1), j = ix2 p u := ⟨j 0, j 1, eq_ix2 j⟩
  rw [shapeCast_a_a1_apply, bcastInDim_a_a1_apply]

/-- A scalar broadcast (host) to any shape reads its one entry everywhere. -/
theorem bcastInDim_scalar_apply {t : Shape} (v : (⟨0, ![]⟩ : Shape).Idx → α)
    (h : (⟨0, ![]⟩ : Shape).BroadcastsInDim t (![] : Fin 0 → Fin t.rank)) (j : t.Idx) (k : (⟨0, ![]⟩ : Shape).Idx) :
    broadcastInDim t ![] h v j = v k :=
  broadcastInDim_apply ![] h v j k fun ax => ax.elim0

end Cert.LibColumn
-- ==== Proof.Region0.lean ====
/-
  The first launch: x · Wl and x · Wr + b, ten blocks of 5000 rows at a time.

  Each grid point t stages rows 5000·t … 5000·t + 4999 of the [50000, 96] array x, the two [96, 64] weight arrays and
  the [1, 64] bias row whole, multiplies the row block by each weight array into a zero accumulator and adds the
  bias row to the second product. Entry (p, q) of a block's product is the sum over the 96 columns k of
  x (5000·t + p, k) · W (k, q): the entry (5000·t + p, q) of the whole product. The ten blocks tile the 50000 rows,
  so after the launch the two result arrays hold the whole products, index by index, of the arrays the launch found.
-/
import proofs.«100753_j39170101740217_2_alg».proof.Proof.Gen.KernelIdeal.Frame
import proofs.«100753_j39170101740217_2_alg».proof.Proof.LibMatmulAt
import proofs.«100753_j39170101740217_2_alg».proof.Proof.LibColumn
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Reg0

open Cert.KernelIdeal Cert.KernelIdeal.Gen
open Idealize.ShloMosaic Idealize.ShloMosaic.TcCoe Idealize.ShloMosaic.ValueIdx Idealize.SL.Sem
open Idealize.ShloMosaic.Pipeline (Dat)

/-- The whole product: entry (i, q) is the sum over k of X (i, k) · W (k, q). -/
def prod (X : S50000x96.Idx → EReal) (W : S96x64.Idx → EReal) : S50000x64.Idx → EReal :=
  fun j => ∑ k : Fin 96, X (ix2 (⟨(j 0).val, idx2_lt0 j⟩ : Fin 50000) k) * W (ix2 k (⟨(j 1).val, idx2_lt1 j⟩ : Fin 64))

theorem prod_apply (X : S50000x96.Idx → EReal) (W : S96x64.Idx → EReal) (i : Fin 50000) (q : Fin 64) :
    prod X W (ix2 i q) = ∑ k : Fin 96, X (ix2 i k) * W (ix2 k q) := rfl

/-- The whole product with the bias row added to every row. -/
def prodBias (X : S50000x96.Idx → EReal) (W : S96x64.Idx → EReal) (B : S1x64.Idx → EReal) : S50000x64.Idx → EReal :=
  fun j => prod X W j + B (ix2 (0 : Fin 1) (⟨(j 1).val, idx2_lt1 j⟩ : Fin 64))

theorem prodBias_apply (X : S50000x96.Idx → EReal) (W : S96x64.Idx → EReal) (B : S1x64.Idx → EReal) (i : Fin 50000) (q : Fin 64) :
    prodBias X W B (ix2 i q) = (∑ k : Fin 96, X (ix2 i k) * W (ix2 k q)) + B (ix2 (0 : Fin 1) q) := rfl

/-- The first payload at (p, q): the block's row p times column q of the weights. -/
theorem pay2_apply (x0 : Vec Ideal S5000x96 .f32) (x1 : Vec Ideal S96x64 .f32) (p : Fin 5000) (q : Fin 64) :
    k0_pay2 x0 x1 (ix2 p q) = ∑ k : Fin 96, x0 (ix2 p k) * x1 (ix2 k q) := by
  unfold k0_pay2 k0_pay1
  exact Cert.LibMatmulAt.matmul_zero_apply dot_S5000x96_S96x64_S5000x64_1_0_0_1_n_n rfl rfl rfl rfl rfl rfl none _ _ p q

/-- The second payload at (p, q): the same product plus the bias row's entry q. -/
theorem pay3_apply (x0 : Vec Ideal S5000x96 .f32) (x2 : Vec Ideal S96x64 .f32) (x3 : Vec Ideal S1x64 .f32) (p : Fin 5000) (q : Fin 64) :
    k0_pay3 x0 x2 x3 (ix2 p q) = (∑ k : Fin 96, x0 (ix2 p k) * x2 (ix2 k q)) + x3 (ix2 (0 : Fin 1) q) := by
  unfold k0_pay3 k0_pay1
  rw [addf_apply]
  refine congrArg₂ (· + ·) ?_ ?_
  · exact Cert.LibMatmulAt.matmul_zero_apply dot_S5000x96_S96x64_S5000x64_1_0_0_1_n_n rfl rfl rfl rfl rfl rfl none _ _ p q
  · exact (broadcastTo_1b_ab_apply _ _ p q).trans (congrFun (shapeCast_self x3 _) _)

/-- Row p of a block of x is row P of the array, column q of the weights is the whole array's: the first payload at
    (p, q) is the whole product at (P, q). -/
theorem pay2_whole (x0 : Vec Ideal S5000x96 .f32) (x1 : Vec Ideal S96x64 .f32)
    (X : S50000x96.Idx → EReal) (W : S96x64.Idx → EReal) (p : Fin 5000) (q : Fin 64) (P : Fin 50000)
    (h0 : ∀ k : Fin 96, x0 (ix2 p k) = X (ix2 P k)) (h1 : ∀ k : Fin 96, x1 (ix2 k q) = W (ix2 k q)) :
    k0_pay2 x0 x1 (ix2 p q) = prod X W (ix2 P q) := by
  rw [pay2_apply, prod_apply]
  exact Finset.sum_congr rfl fun k _ => by rw [h0 k, h1 k]

/-- The same for the second payload, with the bias row. -/
theorem pay3_whole (x0 : Vec Ideal S5000x96 .f32) (x2 : Vec Ideal S96x64 .f32) (x3 : Vec Ideal S1x64 .f32)
    (X : S50000x96.Idx → EReal) (W : S96x64.Idx → EReal) (B : S1x64.Idx → EReal) (p : Fin 5000) (q : Fin 64) (P : Fin 50000)
    (h0 : ∀ k : Fin 96, x0 (ix2 p k) = X (ix2 P k)) (h1 : ∀ k : Fin 96, x2 (ix2 k q) = W (ix2 k q))
    (h2 : x3 (ix2 (0 : Fin 1) q) = B (ix2 (0 : Fin 1) q)) :
    k0_pay3 x0 x2 x3 (ix2 p q) = prodBias X W B (ix2 P q) := by
  rw [pay3_apply, prodBias_apply, h2]
  exact congrArg (· + _) (Finset.sum_congr rfl fun k _ => by rw [h0 k, h1 k])

theorem hz : (![0, 0] : Fin 2 → Nat) = fun _ => 0 := funext fun a => by fin_cases a <;> rfl

/-- The index maps over the grid: the row blocks of x and of both results move together, block t at point t; the
    weights and the bias row stay at block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 ∧ t.val < 10 :=
  (by decide +kernel : ∀ t : Fin grid0.N, _)

variable (V : (c : Dev nD) → (b : Ref sig .tc) → Buf (Elt Ideal) ((c : Thread nD τ).loc b))

/-- What point t writes back through the first result window is block t of the whole product of the arrays the launch found. -/
theorem flushed4_eq (c : Dev nD) (t : Fin cfg0.N) :
    (dat0 V c).flushed 4 t = ((cfg0.win 4).blk t).view.read (Elt Ideal) (prod (V c main_arg0) (V c main_arg2)) := by
  show (cfg0.win 4).cut (grid0.coords t) ((dat0 V c).after 4 t) = _
  rw [after0_4]
  unfold out0_4
  rw [View.canon_unit_zero hz]
  simp only [View.ld_unit_zero (S := S5000x96) hz, View.ld_unit_zero (S := S96x64) hz]
  obtain ⟨e00, e01, e10, e11, e20, e21, e30, e31, e40, e41, e50, e51, ht⟩ := idx_facts t
  funext j
  obtain ⟨p, q, rfl⟩ : ∃ (p : Fin 5000) (q : Fin 64), j = ix2 p q := ⟨j 0, j 1, eq_ix2 j⟩
  show k0_pay2 (iblk0 V c 0 t) (iblk0 V c 1 t) (ix2 p q) = prod (V c main_arg0) (V c main_arg2) (((cfg0.win 4).blk t).view.emb (ix2 p q))
  have hP : ((cfg0.win 4).blk t).view.emb (ix2 p q) = ix2 (⟨t.val * 5000 + p.val, by have := p.isLt; omega⟩ : Fin 50000) q := by
    funext a; apply Fin.ext
    match a with
    | ⟨0, _⟩ => show win0_4.index t (0 : Fin 2) * 5000 + 1 * p.val = t.val * 5000 + p.val; omega
    | ⟨1, _⟩ => show win0_4.index t (1 : Fin 2) * 64 + 1 * q.val = q.val; omega
  rw [hP]
  refine pay2_whole _ _ _ _ p q _ (fun k => ?_) (fun k => ?_)
  · show V c main_arg0 (((cfg0.win 0).blk t).view.emb (ix2 p k)) = _
    refine congrArg _ ?_
    funext a; apply Fin.ext
    match a with
    | ⟨0, _⟩ => show win0_0.index t (0 : Fin 2) * 5000 + 1 * p.val = t.val * 5000 + p.val; omega
    | ⟨1, _⟩ => show win0_0.index t (1 : Fin 2) * 96 + 1 * k.val = k.val; omega
  · show V c main_arg2 (((cfg0.win 1).blk t).view.emb (ix2 k q)) = _
    refine congrArg _ ?_
    funext a; apply Fin.ext
    match a with
    | ⟨0, _⟩ => show win0_1.index t (0 : Fin 2) * 96 + 1 * k.val = k.val; omega
    | ⟨1, _⟩ => show win0_1.index t (1 : Fin 2) * 64 + 1 * q.val = q.val; omega

/-- What point t writes back through the second result window is block t of the whole product plus the bias row. -/
theorem flushed5_eq (c : Dev nD) (t : Fin cfg0.N) :
    (dat0 V c).flushed 5 t = ((cfg0.win 5).blk t).view.read (Elt Ideal) (prodBias (V c main_arg0) (V c main_arg3) (V c main_v13)) := by
  show (cfg0.win 5).cut (grid0.coords t) ((dat0 V c).after 5 t) = _
  rw [after0_5]
  unfold out0_5
  rw [View.canon_unit_zero hz]
  simp only [View.ld_unit_zero (S := S5000x96) hz, View.ld_unit_zero (S := S96x64) hz, View.ld_unit_zero (S := S1x64) hz]
  obtain ⟨e00, e01, e10, e11, e20, e21, e30, e31, e40, e41, e50, e51, ht⟩ := idx_facts t
  funext j
  obtain ⟨p, q, rfl⟩ : ∃ (p : Fin 5000) (q : Fin 64), j = ix2 p q := ⟨j 0, j 1, eq_ix2 j⟩
  show k0_pay3 (iblk0 V c 0 t) (iblk0 V c 2 t) (iblk0 V c 3 t) (ix2 p q) = prodBias (V c main_arg0) (V c main_arg3) (V c main_v13) (((cfg0.win 5).blk t).view.emb (ix2 p q))
  have hP : ((cfg0.win 5).blk t).view.emb (ix2 p q) = ix2 (⟨t.val * 5000 + p.val, by have := p.isLt; omega⟩ : Fin 50000) q := by
    funext a; apply Fin.ext
    match a with
    | ⟨0, _⟩ => show win0_5.index t (0 : Fin 2) * 5000 + 1 * p.val = t.val * 5000 + p.val; omega
    | ⟨1, _⟩ => show win0_5.index t (1 : Fin 2) * 64 + 1 * q.val = q.val; omega
  rw [hP]
  refine pay3_whole _ _ _ _ _ _ p q _ (fun k => ?_) (fun k => ?_) ?_
  · show V c main_arg0 (((cfg0.win 0).blk t).view.emb (ix2 p k)) = _
    refine congrArg _ ?_
    funext a; apply Fin.ext
    match a with
    | ⟨0, _⟩ => show win0_0.index t (0 : Fin 2) * 5000 + 1 * p.val = t.val * 5000 + p.val; omega
    | ⟨1, _⟩ => show win0_0.index t (1 : Fin 2) * 96 + 1 * k.val = k.val; omega
  · show V c main_arg3 (((cfg0.win 2).blk t).view.emb (ix2 k q)) = _
    refine congrArg _ ?_
    funext a; apply Fin.ext
    match a with
    | ⟨0, _⟩ => show win0_2.index t (0 : Fin 2) * 96 + 1 * k.val = k.val; omega
    | ⟨1, _⟩ => show win0_2.index t (1 : Fin 2) * 64 + 1 * q.val = q.val; omega
  · show V c main_v13 (((cfg0.win 3).blk t).view.emb (ix2 (0 : Fin 1) q)) = _
    refine congrArg _ ?_
    funext a; apply Fin.ext
    match a with
    | ⟨0, _⟩ => show win0_3.index t (0 : Fin 2) * 1 + 1 * 0 = 0; omega
    | ⟨1, _⟩ => show win0_3.index t (1 : Fin 2) * 64 + 1 * q.val = q.val; omega

/-- An index is in point t's block of the first result iff each coordinate is in the block's range. -/
theorem mem_blk4 (t : Fin cfg0.N) (i : S50000x64.Idx) :
    i ∈ ((cfg0.win 4).blk t).view.set ↔ ∀ a : Fin 2, win0_4.index t a * S5000x64.size a ≤ (i a).val ∧ (i a).val < win0_4.index t a * S5000x64.size a + S5000x64.size a := by
  show i ∈ ((View.whole main_v14_0).slice (win0_4.rect t)).set ↔ _
  rw [View.set_slice_whole, Rect.mem_set_unit]
  exact Iff.rfl

theorem mem_blk5 (t : Fin cfg0.N) (i : S50000x64.Idx) :
    i ∈ ((cfg0.win 5).blk t).view.set ↔ ∀ a : Fin 2, win0_5.index t a * S5000x64.size a ≤ (i a).val ∧ (i a).val < win0_5.index t a * S5000x64.size a + S5000x64.size a := by
  show i ∈ ((View.whole main_v14_1).slice (win0_5.rect t)).set ↔ _
  rw [View.set_slice_whole, Rect.mem_set_unit]
  exact Iff.rfl

/-- Row r is in the block of point r / 5000: the ten blocks cover the array. -/
theorem cover4 (i : S50000x64.Idx) : ∃ t : Fin cfg0.N, (cfg0.win 4).flush t = true ∧ i ∈ ((cfg0.win 4).blk t).view.set := by
  have hi0 : (i 0).val < 50000 := (i 0).isLt
  have hi1 : (i 1).val < 64 := (i 1).isLt
  have hN := N_0
  let tt : Fin cfg0.N := ⟨(i 0).val / 5000, by show (i 0).val / 5000 < grid0.N; omega⟩
  obtain ⟨e00, e01, e10, e11, e20, e21, e30, e31, e40, e41, e50, e51, ht⟩ := idx_facts tt
  have e40' : win0_4.index tt (0 : Fin 2) = (i 0).val / 5000 := e40
  refine ⟨tt, flush0_4 tt, ?_⟩
  rw [mem_blk4]
  intro a
  match a with
  | ⟨0, _⟩ => show win0_4.index tt (0 : Fin 2) * 5000 ≤ (i 0).val ∧ (i 0).val < win0_4.index tt (0 : Fin 2) * 5000 + 5000; omega
  | ⟨1, _⟩ => show win0_4.index tt (1 : Fin 2) * 64 ≤ (i 1).val ∧ (i 1).val < win0_4.index tt (1 : Fin 2) * 64 + 64; omega

theorem cover5 (i : S50000x64.Idx) : ∃ t : Fin cfg0.N, (cfg0.win 5).flush t = true ∧ i ∈ ((cfg0.win 5).blk t).view.set := by
  have hi0 : (i 0).val < 50000 := (i 0).isLt
  have hi1 : (i 1).val < 64 := (i 1).isLt
  have hN := N_0
  let tt : Fin cfg0.N := ⟨(i 0).val / 5000, by show (i 0).val / 5000 < grid0.N; omega⟩
  obtain ⟨e00, e01, e10, e11, e20, e21, e30, e31, e40, e41, e50, e51, ht⟩ := idx_facts tt
  have e50' : win0_5.index tt (0 : Fin 2) = (i 0).val / 5000 := e50
  refine ⟨tt, flush0_5 tt, ?_⟩
  rw [mem_blk5]
  intro a
  match a with
  | ⟨0, _⟩ => show win0_5.index tt (0 : Fin 2) * 5000 ≤ (i 0).val ∧ (i 0).val < win0_5.index tt (0 : Fin 2) * 5000 + 5000; omega
  | ⟨1, _⟩ => show win0_5.index tt (1 : Fin 2) * 64 ≤ (i 1).val ∧ (i 1).val < win0_5.index tt (1 : Fin 2) * 64 + 64; omega

/-- After the launch the first result array is the whole product x · Wl of the arrays the launch found. -/
theorem final4 (c : Dev nD) : (dat0 V c).arrAt 4 cfg0.N = prod (V c main_arg0) (V c main_arg2) :=
  (dat0 V c).arrAt_eq_of_cover 4 _ (fun t _ => flushed4_eq V c t) cover4

/-- After the launch the second result array is x · Wr plus the bias row. -/
theorem final5 (c : Dev nD) : (dat0 V c).arrAt 5 cfg0.N = prodBias (V c main_arg0) (V c main_arg3) (V c main_v13) :=
  (dat0 V c).arrAt_eq_of_cover 5 _ (fun t _ => flushed5_eq V c t) cover5

end Cert.KernelIdeal.Reg0

end
-- ==== Proof.Region1.lean ====
/-
  The second launch: the rectified sum of the scaled aggregate and the self term, ten blocks of 5000 rows at a time.

  Each grid point t stages rows 5000·t … 5000·t + 4999 of the aggregate S [50000, 64], of the column of reciprocal
  degrees [50000, 1] and of the self term R [50000, 64], and stores max (S · inv + R, 0) entry by entry, the column
  repeated along each row. Entry (p, q) of block t is the entry (5000·t + p, q) of that function of the whole arrays,
  and the ten blocks tile the rows.
-/
import proofs.«100753_j39170101740217_2_alg».proof.Proof.Gen.KernelIdeal.Frame
import proofs.«100753_j39170101740217_2_alg».proof.Proof.LibMatmulAt
import proofs.«100753_j39170101740217_2_alg».proof.Proof.LibColumn
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Reg1

open Cert.KernelIdeal Cert.KernelIdeal.Gen
open Idealize.ShloMosaic Idealize.ShloMosaic.TcCoe Idealize.ShloMosaic.ValueIdx Idealize.SL.Sem
open Idealize.ShloMosaic.Pipeline (Dat)

/-- max (S · inv + R, 0), entry by entry, the degree column repeated along each row. -/
def combine (S : S50000x64.Idx → EReal) (Inv : S50000x1.Idx → EReal) (R : S50000x64.Idx → EReal) : S50000x64.Idx → EReal :=
  fun j => max (S j * Inv (ix2 (⟨(j 0).val, idx2_lt0 j⟩ : Fin 50000) (0 : Fin 1)) + R j) (Ideal.ofBits .f32 0x00000000#32)

theorem combine_apply (S : S50000x64.Idx → EReal) (Inv : S50000x1.Idx → EReal) (R : S50000x64.Idx → EReal) (i : Fin 50000) (q : Fin 64) :
    combine S Inv R (ix2 i q) = max (S (ix2 i q) * Inv (ix2 i (0 : Fin 1)) + R (ix2 i q)) (Ideal.ofBits .f32 0x00000000#32) := rfl

/-- The payload at (p, q). -/
theorem pay1_apply (v0 : Vec Ideal S5000x64 .f32) (v2 : Vec Ideal S5000x1 .f32) (v6 : Vec Ideal S5000x64 .f32) (p : Fin 5000) (q : Fin 64) :
    k1_pay1 v0 v2 v6 (ix2 p q) = max (v0 (ix2 p q) * v2 (ix2 p (0 : Fin 1)) + v6 (ix2 p q)) (Ideal.ofBits .f32 0x00000000#32) := by
  unfold k1_pay1
  show max ((shapeCast S5000x64 v0 shapeCasts_S5000x64_S5000x64) (ix2 p q)
      * (broadcastTo S5000x64 (shapeCast S5000x1 v2 shapeCasts_S5000x1_S5000x1) broadcasts_S5000x1_S5000x64) (ix2 p q)
      + (shapeCast S5000x64 v6 shapeCasts_S5000x64_S5000x64) (ix2 p q)) (Ideal.ofBits .f32 0x00000000#32) = _
  rw [shapeCast_self, shapeCast_self, Cert.LibColumn.broadcastTo_a1_ab_apply, shapeCast_self]

theorem pay1_whole (v0 : Vec Ideal S5000x64 .f32) (v2 : Vec Ideal S5000x1 .f32) (v6 : Vec Ideal S5000x64 .f32)
    (S : S50000x64.Idx → EReal) (Inv : S50000x1.Idx → EReal) (R : S50000x64.Idx → EReal) (p : Fin 5000) (q : Fin 64) (P : Fin 50000)
    (h0 : v0 (ix2 p q) = S (ix2 P q)) (h1 : v2 (ix2 p (0 : Fin 1)) = Inv (ix2 P (0 : Fin 1))) (h2 : v6 (ix2 p q) = R (ix2 P q)) :
    k1_pay1 v0 v2 v6 (ix2 p q) = combine S Inv R (ix2 P q) := by
  rw [pay1_apply, combine_apply, h0, h1, h2]

theorem hz : (![0, 0] : Fin 2 → Nat) = fun _ => 0 := funext fun a => by fin_cases a <;> rfl

/-- The index maps over the grid: every window's row block is block t at point t. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 ∧ t.val < 10 :=
  (by decide +kernel : ∀ t : Fin grid1.N, _)

variable (V : (c : Dev nD) → (b : Ref sig .tc) → Buf (Elt Ideal) ((c : Thread nD τ).loc b))

/-- What point t writes back is block t of the combined array of the arrays the launch found. -/
theorem flushed3_eq (c : Dev nD) (t : Fin cfg1.N) :
    (dat1 V c).flushed 3 t = ((cfg1.win 3).blk t).view.read (Elt Ideal) (combine (V c main_v24) (V c main_v12) (V c main_v14_1)) := by
  show (cfg1.win 3).cut (grid1.coords t) ((dat1 V c).after 3 t) = _
  rw [after1_3]
  unfold out1_3
  rw [View.canon_unit_zero hz]
  simp only [View.ld_unit_zero (S := S5000x64) hz, View.ld_unit_zero (S := S5000x1) hz]
  obtain ⟨e00, e01, e10, e11, e20, e21, e30, e31, ht⟩ := idx_facts t
  funext j
  obtain ⟨p, q, rfl⟩ : ∃ (p : Fin 5000) (q : Fin 64), j = ix2 p q := ⟨j 0, j 1, eq_ix2 j⟩
  show k1_pay1 (iblk1 V c 0 t) (iblk1 V c 1 t) (iblk1 V c 2 t) (ix2 p q) = combine (V c main_v24) (V c main_v12) (V c main_v14_1) (((cfg1.win 3).blk t).view.emb (ix2 p q))
  have hP : ((cfg1.win 3).blk t).view.emb (ix2 p q) = ix2 (⟨t.val * 5000 + p.val, by have := p.isLt; omega⟩ : Fin 50000) q := by
    funext a; apply Fin.ext
    match a with
    | ⟨0, _⟩ => show win1_3.index t (0 : Fin 2) * 5000 + 1 * p.val = t.val * 5000 + p.val; omega
    | ⟨1, _⟩ => show win1_3.index t (1 : Fin 2) * 64 + 1 * q.val = q.val; omega
  rw [hP]
  refine pay1_whole _ _ _ _ _ _ p q _ ?_ ?_ ?_
  · show V c main_v24 (((cfg1.win 0).blk t).view.emb (ix2 p q)) = _
    refine congrArg _ ?_
    funext a; apply Fin.ext
    match a with
    | ⟨0, _⟩ => show win1_0.index t (0 : Fin 2) * 5000 + 1 * p.val = t.val * 5000 + p.val; omega
    | ⟨1, _⟩ => show win1_0.index t (1 : Fin 2) * 64 + 1 * q.val = q.val; omega
  · show V c main_v12 (((cfg1.win 1).blk t).view.emb (ix2 p (0 : Fin 1))) = _
    refine congrArg _ ?_
    funext a; apply Fin.ext
    match a with
    | ⟨0, _⟩ => show win1_1.index t (0 : Fin 2) * 5000 + 1 * p.val = t.val * 5000 + p.val; omega
    | ⟨1, _⟩ => show win1_1.index t (1 : Fin 2) * 1 + 1 * 0 = 0; omega
  · show V c main_v14_1 (((cfg1.win 2).blk t).view.emb (ix2 p q)) = _
    refine congrArg _ ?_
    funext a; apply Fin.ext
    match a with
    | ⟨0, _⟩ => show win1_2.index t (0 : Fin 2) * 5000 + 1 * p.val = t.val * 5000 + p.val; omega
    | ⟨1, _⟩ => show win1_2.index t (1 : Fin 2) * 64 + 1 * q.val = q.val; omega

/-- An index is in point t's block of the result iff each coordinate is in the block's range. -/
theorem mem_blk3 (t : Fin cfg1.N) (i : S50000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v25).slice (win1_3.rect t)).set ↔ _
  rw [View.set_slice_whole, Rect.mem_set_unit]
  exact Iff.rfl

/-- Row r is in the block of point r / 5000: the ten blocks cover the array. -/
theorem cover3 (i : S50000x64.Idx) : ∃ t : Fin cfg1.N, (cfg1.win 3).flush t = true ∧ i ∈ ((cfg1.win 3).blk t).view.set := by
  have hi0 : (i 0).val < 50000 := (i 0).isLt
  have hi1 : (i 1).val < 64 := (i 1).isLt
  have hN := N_1
  let tt : Fin cfg1.N := ⟨(i 0).val / 5000, by show (i 0).val / 5000 < grid1.N; omega⟩
  obtain ⟨e00, e01, e10, e11, e20, e21, e30, e31, ht⟩ := idx_facts tt
  have e30' : win1_3.index tt (0 : Fin 2) = (i 0).val / 5000 := e30
  refine ⟨tt, flush1_3 tt, ?_⟩
  rw [mem_blk3]
  intro a
  match a with
  | ⟨0, _⟩ => show win1_3.index tt (0 : Fin 2) * 5000 ≤ (i 0).val ∧ (i 0).val < win1_3.index tt (0 : Fin 2) * 5000 + 5000; omega
  | ⟨1, _⟩ => show win1_3.index tt (1 : Fin 2) * 64 ≤ (i 1).val ∧ (i 1).val < win1_3.index tt (1 : Fin 2) * 64 + 64; omega

/-- After the launch the result array is max (S · inv + R, 0) of the arrays the launch found. -/
theorem final3 (c : Dev nD) : (dat1 V c).arrAt 3 cfg1.N = combine (V c main_v24) (V c main_v12) (V c main_v14_1) :=
  (dat1 V c).arrAt_eq_of_cover 3 _ (fun t _ => flushed3_eq V c t) cover3

end Cert.KernelIdeal.Reg1

end
-- ==== Proof.Region2.lean ====
/-
  The third launch: (S · inv) · Wl + H · Wr + b, ten blocks of 5000 rows at a time.

  Each grid point t stages rows 5000·t … 5000·t + 4999 of the aggregate S [50000, 64], of the column of reciprocal
  degrees [50000, 1] and of the features H [50000, 64], with the two [64, 64] weight arrays and the [1, 64] bias row
  whole; it scales each row of S by its reciprocal degree, multiplies the scaled block by Wl and the feature block by
  Wr into zero accumulators, adds the two products and then the bias row. Entry (p, q) of block t is the entry
  (5000·t + p, q) of that function of the whole arrays, and the ten blocks tile the rows.
-/
import proofs.«100753_j39170101740217_2_alg».proof.Proof.Gen.KernelIdeal.Frame
import proofs.«100753_j39170101740217_2_alg».proof.Proof.LibMatmulAt
import proofs.«100753_j39170101740217_2_alg».proof.Proof.LibColumn
import Idealize.ShloMosaic.Lib.Pipeline.Value
import Idealize.ShloMosaic.Lib.ValueIdx
import Idealize.ShloMosaic.Lib.ValueLayout

set_option maxRecDepth 16384

noncomputable section

open scoped BigOperators

namespace Cert.KernelIdeal.Reg2

open Cert.KernelIdeal Cert.KernelIdeal.Gen
open Idealize.ShloMosaic Idealize.ShloMosaic.TcCoe Idealize.ShloMosaic.ValueIdx Idealize.SL.Sem
open Idealize.ShloMosaic.Pipeline (Dat)

/-- (S · inv) · Wl + H · Wr + b at (i, q): the sum over k of (S (i, k) · inv i) · Wl (k, q), plus the sum over k of
    H (i, k) · Wr (k, q), plus b q. -/
def layer (S : S50000x64.Idx → EReal) (Inv : S50000x1.Idx → EReal) (H : S50000x64.Idx → EReal)
    (Wl Wr : S64x64.Idx → EReal) (B : S1x64.Idx → EReal) : S50000x64.Idx → EReal :=
  fun j => ((∑ k : Fin 64, (S (ix2 (⟨(j 0).val, idx2_lt0 j⟩ : Fin 50000) k) * Inv (ix2 (⟨(j 0).val, idx2_lt0 j⟩ : Fin 50000) (0 : Fin 1)))
        * Wl (ix2 k (⟨(j 1).val, idx2_lt1 j⟩ : Fin 64)))
      + ∑ k : Fin 64, H (ix2 (⟨(j 0).val, idx2_lt0 j⟩ : Fin 50000) k) * Wr (ix2 k (⟨(j 1).val, idx2_lt1 j⟩ : Fin 64)))
    + B (ix2 (0 : Fin 1) (⟨(j 1).val, idx2_lt1 j⟩ : Fin 64))

theorem layer_apply (S : S50000x64.Idx → EReal) (Inv : S50000x1.Idx → EReal) (H : S50000x64.Idx → EReal)
    (Wl Wr : S64x64.Idx → EReal) (B : S1x64.Idx → EReal) (i : Fin 50000) (q : Fin 64) :
    layer S Inv H Wl Wr B (ix2 i q)
      = ((∑ k : Fin 64, (S (ix2 i k) * Inv (ix2 i (0 : Fin 1))) * Wl (ix2 k q)) + ∑ k : Fin 64, H (ix2 i k) * Wr (ix2 k q))
        + B (ix2 (0 : Fin 1) q) := rfl

/-- The payload at (p, q). -/
theorem pay1_apply (v0 : Vec Ideal S5000x64 .f32) (v2 : Vec Ideal S5000x1 .f32) (v7 : Vec Ideal S5000x64 .f32)
    (v10 v12 : Vec Ideal S64x64 .f32) (v14 : Vec Ideal S1x64 .f32) (p : Fin 5000) (q : Fin 64) :
    k2_pay1 v0 v2 v7 v10 v12 v14 (ix2 p q)
      = ((∑ k : Fin 64, (v0 (ix2 p k) * v2 (ix2 p (0 : Fin 1))) * v10 (ix2 k q)) + ∑ k : Fin 64, v7 (ix2 p k) * v12 (ix2 k q))
        + v14 (ix2 (0 : Fin 1) q) := by
  unfold k2_pay1
  rw [addf_apply, addf_apply]
  refine congrArg₂ (· + ·) (congrArg₂ (· + ·) ?_ ?_) ?_
  · refine (Cert.LibMatmulAt.matmul_zero_apply dot_S5000x64_S64x64_S5000x64_1_0_0_1_n_n rfl rfl rfl rfl rfl rfl none _ _ p q).trans
      (Finset.sum_congr rfl fun k _ => ?_)
    show ((shapeCast S5000x64 v0 shapeCasts_S5000x64_S5000x64) (ix2 p k)
        * (broadcastTo S5000x64 (shapeCast S5000x1 v2 shapeCasts_S5000x1_S5000x1) broadcasts_S5000x1_S5000x64) (ix2 p k)) * v10 (ix2 k q) = _
    rw [shapeCast_self, Cert.LibColumn.broadcastTo_a1_ab_apply, shapeCast_self]
  · refine (Cert.LibMatmulAt.matmul_zero_apply dot_S5000x64_S64x64_S5000x64_1_0_0_1_n_n rfl rfl rfl rfl rfl rfl none _ _ p q).trans
      (Finset.sum_congr rfl fun k _ => ?_)
    show (shapeCast S5000x64 v7 shapeCasts_S5000x64_S5000x64) (ix2 p k) * v12 (ix2 k q) = _
    rw [shapeCast_self]
  · exact (broadcastTo_1b_ab_apply _ _ p q).trans (congrFun (shapeCast_self v14 _) _)

theorem pay1_whole (v0 : Vec Ideal S5000x64 .f32) (v2 : Vec Ideal S5000x1 .f32) (v7 : Vec Ideal S5000x64 .f32)
    (v10 v12 : Vec Ideal S64x64 .f32) (v14 : Vec Ideal S1x64 .f32)
    (S : S50000x64.Idx → EReal) (Inv : S50000x1.Idx → EReal) (H : S50000x64.Idx → EReal)
    (Wl Wr : S64x64.Idx → EReal) (B : S1x64.Idx → EReal) (p : Fin 5000) (q : Fin 64) (P : Fin 50000)
    (h0 : ∀ k : Fin 64, v0 (ix2 p k) = S (ix2 P k)) (h1 : v2 (ix2 p (0 : Fin 1)) = Inv (ix2 P (0 : Fin 1)))
    (h2 : ∀ k : Fin 64, v7 (ix2 p k) = H (ix2 P k)) (h3 : ∀ k : Fin 64, v10 (ix2 k q) = Wl (ix2 k q))
    (h4 : ∀ k : Fin 64, v12 (ix2 k q) = Wr (ix2 k q)) (h5 : v14 (ix2 (0 : Fin 1) q) = B (ix2 (0 : Fin 1) q)) :
    k2_pay1 v0 v2 v7 v10 v12 v14 (ix2 p q) = layer S Inv H Wl Wr B (ix2 P q) := by
  rw [pay1_apply, layer_apply, h1, h5]
  refine congrArg (· + _) (congrArg₂ (· + ·) ?_ ?_)
  · exact Finset.sum_congr rfl fun k _ => by rw [h0 k, h3 k]
  · exact Finset.sum_congr rfl fun k _ => by rw [h2 k, h4 k]

theorem hz : (![0, 0] : Fin 2 → Nat) = fun _ => 0 := funext fun a => by fin_cases a <;> rfl

/-- The index maps over the grid: the three row-blocked inputs and the result move together, block t at point t; the
    weights and the bias row stay at block (0, 0). -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 ∧ t.val < 10 :=
  (by decide +kernel : ∀ t : Fin grid2.N, _)

variable (V : (c : Dev nD) → (b : Ref sig .tc) → Buf (Elt Ideal) ((c : Thread nD τ).loc b))

/-- What point t writes back is block t of the layer of the arrays the launch found. -/
theorem flushed6_eq (c : Dev nD) (t : Fin cfg2.N) :
    (dat2 V c).flushed 6 t = ((cfg2.win 6).blk t).view.read (Elt Ideal)
      (layer (V c main_v35) (V c main_v12) (V c main_v25) (V c main_arg5) (V c main_arg6) (V c main_v36)) := by
  show (cfg2.win 6).cut (grid2.coords t) ((dat2 V c).after 6 t) = _
  rw [after2_6]
  unfold out2_6
  rw [View.canon_unit_zero hz]
  simp only [View.ld_unit_zero (S := S5000x64) hz, View.ld_unit_zero (S := S5000x1) hz, View.ld_unit_zero (S := S64x64) hz,
    View.ld_unit_zero (S := S1x64) hz]
  obtain ⟨e00, e01, e10, e11, e20, e21, e30, e31, e40, e41, e50, e51, e60, e61, ht⟩ := idx_facts t
  funext j
  obtain ⟨p, q, rfl⟩ : ∃ (p : Fin 5000) (q : Fin 64), j = ix2 p q := ⟨j 0, j 1, eq_ix2 j⟩
  show k2_pay1 (iblk2 V c 0 t) (iblk2 V c 1 t) (iblk2 V c 2 t) (iblk2 V c 3 t) (iblk2 V c 4 t) (iblk2 V c 5 t) (ix2 p q)
    = layer (V c main_v35) (V c main_v12) (V c main_v25) (V c main_arg5) (V c main_arg6) (V c main_v36) (((cfg2.win 6).blk t).view.emb (ix2 p q))
  have hP : ((cfg2.win 6).blk t).view.emb (ix2 p q) = ix2 (⟨t.val * 5000 + p.val, by have := p.isLt; omega⟩ : Fin 50000) q := by
    funext a; apply Fin.ext
    match a with
    | ⟨0, _⟩ => show win2_6.index t (0 : Fin 2) * 5000 + 1 * p.val = t.val * 5000 + p.val; omega
    | ⟨1, _⟩ => show win2_6.index t (1 : Fin 2) * 64 + 1 * q.val = q.val; omega
  rw [hP]
  refine pay1_whole _ _ _ _ _ _ _ _ _ _ _ _ p q _ (fun k => ?_) ?_ (fun k => ?_) (fun k => ?_) (fun k => ?_) ?_
  · show V c main_v35 (((cfg2.win 0).blk t).view.emb (ix2 p k)) = _
    refine congrArg _ ?_
    funext a; apply Fin.ext
    match a with
    | ⟨0, _⟩ => show win2_0.index t (0 : Fin 2) * 5000 + 1 * p.val = t.val * 5000 + p.val; omega
    | ⟨1, _⟩ => show win2_0.index t (1 : Fin 2) * 64 + 1 * k.val = k.val; omega
  · show V c main_v12 (((cfg2.win 1).blk t).view.emb (ix2 p (0 : Fin 1))) = _
    refine congrArg _ ?_
    funext a; apply Fin.ext
    match a with
    | ⟨0, _⟩ => show win2_1.index t (0 : Fin 2) * 5000 + 1 * p.val = t.val * 5000 + p.val; omega
    | ⟨1, _⟩ => show win2_1.index t (1 : Fin 2) * 1 + 1 * 0 = 0; omega
  · show V c main_v25 (((cfg2.win 2).blk t).view.emb (ix2 p k)) = _
    refine congrArg _ ?_
    funext a; apply Fin.ext
    match a with
    | ⟨0, _⟩ => show win2_2.index t (0 : Fin 2) * 5000 + 1 * p.val = t.val * 5000 + p.val; omega
    | ⟨1, _⟩ => show win2_2.index t (1 : Fin 2) * 64 + 1 * k.val = k.val; omega
  · show V c main_arg5 (((cfg2.win 3).blk t).view.emb (ix2 k q)) = _
    refine congrArg _ ?_
    funext a; apply Fin.ext
    match a with
    | ⟨0, _⟩ => show win2_3.index t (0 : Fin 2) * 64 + 1 * k.val = k.val; omega
    | ⟨1, _⟩ => show win2_3.index t (1 : Fin 2) * 64 + 1 * q.val = q.val; omega
  · show V c main_arg6 (((cfg2.win 4).blk t).view.emb (ix2 k q)) = _
    refine congrArg _ ?_
    funext a; apply Fin.ext
    match a with
    | ⟨0, _⟩ => show win2_4.index t (0 : Fin 2) * 64 + 1 * k.val = k.val; omega
    | ⟨1, _⟩ => show win2_4.index t (1 : Fin 2) * 64 + 1 * q.val = q.val; omega
  · show V c main_v36 (((cfg2.win 5).blk t).view.emb (ix2 (0 : Fin 1) q)) = _
    refine congrArg _ ?_
    funext a; apply Fin.ext
    match a with
    | ⟨0, _⟩ => show win2_5.index t (0 : Fin 2) * 1 + 1 * 0 = 0; omega
    | ⟨1, _⟩ => show win2_5.index t (1 : Fin 2) * 64 + 1 * q.val = q.val; omega

/-- An index is in point t's block of the result iff each coordinate is in the block's range. -/
theorem mem_blk6 (t : Fin cfg2.N) (i : S50000x64.Idx) :
    i ∈ ((cfg2.win 6).blk t).view.set ↔ ∀ a : Fin 2, win2_6.index t a * S5000x64.size a ≤ (i a).val ∧ (i a).val < win2_6.index t a * S5000x64.size a + S5000x64.size a := by
  show i ∈ ((View.whole main_v37).slice (win2_6.rect t)).set ↔ _
  rw [View.set_slice_whole, Rect.mem_set_unit]
  exact Iff.rfl

/-- Row r is in the block of point r / 5000: the ten blocks cover the array. -/
theorem cover6 (i : S50000x64.Idx) : ∃ t : Fin cfg2.N, (cfg2.win 6).flush t = true ∧ i ∈ ((cfg2.win 6).blk t).view.set := by
  have hi0 : (i 0).val < 50000 := (i 0).isLt
  have hi1 : (i 1).val < 64 := (i 1).isLt
  have hN := N_2
  let tt : Fin cfg2.N := ⟨(i 0).val / 5000, by show (i 0).val / 5000 < grid2.N; omega⟩
  obtain ⟨e00, e01, e10, e11, e20, e21, e30, e31, e40, e41, e50, e51, e60, e61, ht⟩ := idx_facts tt
  have e60' : win2_6.index tt (0 : Fin 2) = (i 0).val / 5000 := e60
  refine ⟨tt, flush2_6 tt, ?_⟩
  rw [mem_blk6]
  intro a
  match a with
  | ⟨0, _⟩ => show win2_6.index tt (0 : Fin 2) * 5000 ≤ (i 0).val ∧ (i 0).val < win2_6.index tt (0 : Fin 2) * 5000 + 5000; omega
  | ⟨1, _⟩ => show win2_6.index tt (1 : Fin 2) * 64 ≤ (i 1).val ∧ (i 1).val < win2_6.index tt (1 : Fin 2) * 64 + 64; omega

/-- After the launch the result array is the layer of the arrays the launch found. -/
theorem final6 (c : Dev nD) : (dat2 V c).arrAt 6 cfg2.N
    = layer (V c main_v35) (V c main_v12) (V c main_v25) (V c main_arg5) (V c main_arg6) (V c main_v36) :=
  (dat2 V c).arrAt_eq_of_cover 6 _ (fun t _ => flushed6_eq V c t) cover6

end Cert.KernelIdeal.Reg2

end
-- ==== Proof.KernelHost.lean ====
/-
  The idealized kernel's buffers between its launches.

  The program alternates stretches of host operations with three tiled launches. The first stretch cuts the edge
  array into its source row and its target row, counts the edges delivered to each node (a scatter-add of ones),
  clamps the count below by one, takes the reciprocal as a column, and lays each bias vector out as a row. The second
  and third stretches gather the rows of a node array along the edges' sources and scatter-add them at the edges'
  targets. Here each buffer a launch reads is written as those operations' term of the buffers before the stretch,
  and each buffer a stretch or a launch does not write is carried across it unchanged, from the launch memory to the
  last boundary.
-/
import proofs.«100753_j39170101740217_2_alg».proof.Proof.Region0
import proofs.«100753_j39170101740217_2_alg».proof.Proof.Region1
import proofs.«100753_j39170101740217_2_alg».proof.Proof.Region2
import Idealize.ShloMosaic.Lib.StableHlo.Run

set_option maxRecDepth 16384

noncomputable section

namespace Cert.KernelIdeal.Host

open Cert.KernelIdeal Cert.KernelIdeal.Gen
open Idealize.ShloMosaic Idealize.ShloMosaic.TcCoe Idealize.SL.Sem Idealize.ShloMosaic.StableHlo

/-- Row r of the edge array as a vector of 800000 indices. -/
def edgeRow0 (EI : (⟨S2x800000, .i32⟩ : BufTy).Contents (Elt Ideal)) : (⟨S800000, .i32⟩ : BufTy).Contents (Elt Ideal) :=
  shapeCast _ (extractStridedSlice S1x800000 ![0, 0] EI slices_S2x800000_S1x800000_0_0) shapeCasts_S1x800000_S800000
def edgeRow1 (EI : (⟨S2x800000, .i32⟩ : BufTy).Contents (Elt Ideal)) : (⟨S800000, .i32⟩ : BufTy).Contents (Elt Ideal) :=
  shapeCast _ (extractStridedSlice S1x800000 ![1, 0] EI slices_S2x800000_S1x800000_1_0) shapeCasts_S1x800000_S800000

/-- The source indices as a column, a negative index moved up by the number of nodes. -/
def srcCol (v1 : (⟨S800000, .i32⟩ : BufTy).Contents (Elt Ideal)) : (⟨S800000x1, .i32⟩ : BufTy).Contents (Elt Ideal) :=
  broadcastInDim S800000x1 ![0] bcast_S800000_S800000x1_0
    (select (cmpi .slt v1 (broadcastInDim S800000 ![] bcast_S_S800000 (constantI S_ 32 0#32)))
      (addi v1 (broadcastInDim S800000 ![] bcast_S_S800000 (constantI S_ 32 50000#32))) v1)

/-- The target indices as a column. -/
def tgtCol (v3 : (⟨S800000, .i32⟩ : BufTy).Contents (Elt Ideal)) : (⟨S800000x1, .i32⟩ : BufTy).Contents (Elt Ideal) :=
  broadcastInDim S800000x1 ![0] bcast_S800000_S800000x1_0 v3

/-- The rows of a node array gathered along the edges' sources and summed at the edges' targets. -/
def edgeSum (A : (⟨S50000x64, .f32⟩ : BufTy).Contents (Elt Ideal)) (v1 v3 : (⟨S800000, .i32⟩ : BufTy).Contents (Elt Ideal)) :
    (⟨S50000x64, .f32⟩ : BufTy).Contents (Elt Ideal) :=
  Host.scatterAdd (F := Ideal) scatter_S50000x64_S800000x1_S800000x64_1_0_0_1
    (broadcastInDim S50000x64 ![] bcast_S_S50000x64 (constant (F := Ideal) S_ .f32 0x00000000#32))
    (tgtCol v3)
    (Host.gather gather_S50000x64_S800000x1_S800000x64_1_0_n_n_0_1_164 A (srcCol v1))

/-- The column of reciprocals of the clamped edge counts. -/
def invCol (v3 : (⟨S800000, .i32⟩ : BufTy).Contents (Elt Ideal)) : (⟨S50000x1, .f32⟩ : BufTy).Contents (Elt Ideal) :=
  shapeCast _ (Host.divf (F := Ideal) (broadcastInDim S50000 ![] bcast_S_S50000 (constant (F := Ideal) S_ .f32 0x3F800000#32))
    (maximumf (Host.scatterAdd (F := Ideal) scatter_S50000_S800000x1_S800000_n_0_0_1
        (broadcastInDim S50000 ![] bcast_S_S50000 (constant (F := Ideal) S_ .f32 0x00000000#32))
        (tgtCol v3)
        (broadcastInDim S800000 ![] bcast_S_S800000 (constant (F := Ideal) S_ .f32 0x3F800000#32)))
      (broadcastInDim S50000 ![] bcast_S_S50000 (constant (F := Ideal) S_ .f32 0x3F800000#32)))) shapeCasts_S50000_S50000x1

/-- A bias vector laid out as a row. -/
def biasRow (b : (⟨S64, .f32⟩ : BufTy).Contents (Elt Ideal)) : (⟨S1x64, .f32⟩ : BufTy).Contents (Elt Ideal) :=
  shapeCast _ b shapeCasts_S64_S1x64

variable (W : Valuation τ sig (Elt Ideal))

/-! ## The first stretch -/

theorem s0_v1 : after hostOps0 W (Proc.devRef .tc main_v1) = edgeRow0 (W (Proc.devRef .tc main_arg1)) := by
  after_results <;> rfl
theorem s0_v3 : after hostOps0 W (Proc.devRef .tc main_v3) = edgeRow1 (W (Proc.devRef .tc main_arg1)) := by
  after_results <;> rfl
theorem s0_v12 : after hostOps0 W (Proc.devRef .tc main_v12) = invCol (edgeRow1 (W (Proc.devRef .tc main_arg1))) := by
  after_results <;> rfl
theorem s0_v13 : after hostOps0 W (Proc.devRef .tc main_v13) = biasRow (W (Proc.devRef .tc main_arg4)) := by
  after_results <;> rfl
theorem s0_arg0 : after hostOps0 W (Proc.devRef .tc main_arg0) = W (Proc.devRef .tc main_arg0) := by after_results <;> rfl
theorem s0_arg2 : after hostOps0 W (Proc.devRef .tc main_arg2) = W (Proc.devRef .tc main_arg2) := by after_results <;> rfl
theorem s0_arg3 : after hostOps0 W (Proc.devRef .tc main_arg3) = W (Proc.devRef .tc main_arg3) := by after_results <;> rfl
theorem s0_arg5 : after hostOps0 W (Proc.devRef .tc main_arg5) = W (Proc.devRef .tc main_arg5) := by after_results <;> rfl
theorem s0_arg6 : after hostOps0 W (Proc.devRef .tc main_arg6) = W (Proc.devRef .tc main_arg6) := by after_results <;> rfl
theorem s0_arg7 : after hostOps0 W (Proc.devRef .tc main_arg7) = W (Proc.devRef .tc main_arg7) := by after_results <;> rfl

/-! ## The second stretch -/

theorem s1_v24 : after hostOps1 W (Proc.devRef .tc main_v24)
    = edgeSum (W (Proc.devRef .tc main_v14_0)) (W (Proc.devRef .tc main_v1)) (W (Proc.devRef .tc main_v3)) := by
  after_results <;> rfl
theorem s1_v12 : after hostOps1 W (Proc.devRef .tc main_v12) = W (Proc.devRef .tc main_v12) := by after_results <;> rfl
theorem s1_v14_1 : after hostOps1 W (Proc.devRef .tc main_v14_1) = W (Proc.devRef .tc main_v14_1) := by after_results <;> rfl
theorem s1_v1 : after hostOps1 W (Proc.devRef .tc main_v1) = W (Proc.devRef .tc main_v1) := by after_results <;> rfl
theorem s1_v3 : after hostOps1 W (Proc.devRef .tc main_v3) = W (Proc.devRef .tc main_v3) := by after_results <;> rfl
theorem s1_arg5 : after hostOps1 W (Proc.devRef .tc main_arg5) = W (Proc.devRef .tc main_arg5) := by after_results <;> rfl
theorem s1_arg6 : after hostOps1 W (Proc.devRef .tc main_arg6) = W (Proc.devRef .tc main_arg6) := by after_results <;> rfl
theorem s1_arg7 : after hostOps1 W (Proc.devRef .tc main_arg7) = W (Proc.devRef .tc main_arg7) := by after_results <;> rfl

/-! ## The third stretch -/

theorem s2_v35 : after hostOps2 W (Proc.devRef .tc main_v35)
    = edgeSum (W (Proc.devRef .tc main_v25)) (W (Proc.devRef .tc main_v1)) (W (Proc.devRef .tc main_v3)) := by
  after_results <;> rfl
theorem s2_v36 : after hostOps2 W (Proc.devRef .tc main_v36) = biasRow (W (Proc.devRef .tc main_arg7)) := by
  after_results <;> rfl
theorem s2_v12 : after hostOps2 W (Proc.devRef .tc main_v12) = W (Proc.devRef .tc main_v12) := by after_results <;> rfl
theorem s2_v25 : after hostOps2 W (Proc.devRef .tc main_v25) = W (Proc.devRef .tc main_v25) := by after_results <;> rfl
theorem s2_arg5 : after hostOps2 W (Proc.devRef .tc main_arg5) = W (Proc.devRef .tc main_arg5) := by after_results <;> rfl
theorem s2_arg6 : after hostOps2 W (Proc.devRef .tc main_arg6) = W (Proc.devRef .tc main_arg6) := by after_results <;> rfl

end Cert.KernelIdeal.Host

end
-- ==== Proof.KernelChain.lean ====
/-
  The idealized kernel's result as one term of its arguments.

  Walking the run's boundaries backwards from the last: the result array is the third launch's layer of the buffers
  the third stretch leaves; those are the edge sum of the hidden features, the reciprocal-count column, the hidden
  features, the second layer's weights and its bias row; the hidden features are the second launch's combination of
  the edge sum of x · Wl, the same column and x · Wr + b; and the two products are the first launch's, of the arguments
  and the first bias row. A buffer that a stretch or a launch does not write is the same on both sides of it, and a
  launch leaves its input arrays as it found them.
-/
import proofs.«100753_j39170101740217_2_alg».proof.Proof.KernelHost

set_option maxRecDepth 16384

noncomputable section

namespace Cert.KernelIdeal.Chain

open Cert.KernelIdeal Cert.KernelIdeal.Gen Cert.KernelIdeal.Host
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The edges' source and target rows. -/
def v1 : (⟨S800000, .i32⟩ : BufTy).Contents (Elt Ideal) := edgeRow0 (m ((c : Thread nD τ).loc main_arg1))
def v3 : (⟨S800000, .i32⟩ : BufTy).Contents (Elt Ideal) := edgeRow1 (m ((c : Thread nD τ).loc main_arg1))

/-- The hidden features. -/
def hid : (⟨S50000x64, .f32⟩ : BufTy).Contents (Elt Ideal) :=
  Reg1.combine (edgeSum (Reg0.prod (m ((c : Thread nD τ).loc main_arg0)) (m ((c : Thread nD τ).loc main_arg2))) (v1 m c) (v3 m c)) (invCol (v3 m c))
    (Reg0.prodBias (m ((c : Thread nD τ).loc main_arg0)) (m ((c : Thread nD τ).loc main_arg3)) (biasRow (m ((c : Thread nD τ).loc main_arg4))))

/-- The result. -/
def res : (⟨S50000x64, .f32⟩ : BufTy).Contents (Elt Ideal) :=
  Reg2.layer (edgeSum (hid m c) (v1 m c) (v3 m c)) (invCol (v3 m c)) (hid m c) (m ((c : Thread nD τ).loc main_arg5)) (m ((c : Thread nD τ).loc main_arg6))
    (biasRow (m ((c : Thread nD τ).loc main_arg7)))

/-! ## After the first stretch -/

theorem w1_v1 : W1 m ρ c (Proc.devRef .tc main_v1) = v1 m c := s0_v1 (W0 m ρ c)
theorem w1_v3 : W1 m ρ c (Proc.devRef .tc main_v3) = v3 m c := s0_v3 (W0 m ρ c)
theorem w1_v12 : W1 m ρ c (Proc.devRef .tc main_v12) = invCol (v3 m c) := s0_v12 (W0 m ρ c)
theorem w1_v13 : W1 m ρ c (Proc.devRef .tc main_v13) = biasRow (m ((c : Thread nD τ).loc main_arg4)) := s0_v13 (W0 m ρ c)
theorem w1_arg0 : W1 m ρ c (Proc.devRef .tc main_arg0) = (m ((c : Thread nD τ).loc main_arg0)) := s0_arg0 (W0 m ρ c)
theorem w1_arg2 : W1 m ρ c (Proc.devRef .tc main_arg2) = (m ((c : Thread nD τ).loc main_arg2)) := s0_arg2 (W0 m ρ c)
theorem w1_arg3 : W1 m ρ c (Proc.devRef .tc main_arg3) = (m ((c : Thread nD τ).loc main_arg3)) := s0_arg3 (W0 m ρ c)
theorem w1_arg5 : W1 m ρ c (Proc.devRef .tc main_arg5) = (m ((c : Thread nD τ).loc main_arg5)) := s0_arg5 (W0 m ρ c)
theorem w1_arg6 : W1 m ρ c (Proc.devRef .tc main_arg6) = (m ((c : Thread nD τ).loc main_arg6)) := s0_arg6 (W0 m ρ c)
theorem w1_arg7 : W1 m ρ c (Proc.devRef .tc main_arg7) = (m ((c : Thread nD τ).loc main_arg7)) := s0_arg7 (W0 m ρ c)

/-! ## After the first launch -/

theorem w2_p : W2 m ρ c (Proc.devRef .tc main_v14_0) = Reg0.prod (m ((c : Thread nD τ).loc main_arg0)) (m ((c : Thread nD τ).loc main_arg2)) :=
  (W2_arr m ρ c 4).trans ((Reg0.final4 (V1 m ρ) c).trans (congrArg₂ Reg0.prod (w1_arg0 m ρ c) (w1_arg2 m ρ c)))
theorem w2_r : W2 m ρ c (Proc.devRef .tc main_v14_1)
    = Reg0.prodBias (m ((c : Thread nD τ).loc main_arg0)) (m ((c : Thread nD τ).loc main_arg3)) (biasRow (m ((c : Thread nD τ).loc main_arg4))) :=
  (W2_arr m ρ c 5).trans ((Reg0.final5 (V1 m ρ) c).trans (by
    rw [show V1 m ρ c main_arg0 = _ from w1_arg0 m ρ c, show V1 m ρ c main_arg3 = _ from w1_arg3 m ρ c,
      show V1 m ρ c main_v13 = _ from w1_v13 m ρ c]))
theorem w2_v1 : W2 m ρ c (Proc.devRef .tc main_v1) = v1 m c := (W2_of_ne m ρ c main_v1 (by decide)).trans (w1_v1 m ρ c)
theorem w2_v3 : W2 m ρ c (Proc.devRef .tc main_v3) = v3 m c := (W2_of_ne m ρ c main_v3 (by decide)).trans (w1_v3 m ρ c)
theorem w2_v12 : W2 m ρ c (Proc.devRef .tc main_v12) = invCol (v3 m c) := (W2_of_ne m ρ c main_v12 (by decide)).trans (w1_v12 m ρ c)
theorem w2_arg5 : W2 m ρ c (Proc.devRef .tc main_arg5) = (m ((c : Thread nD τ).loc main_arg5)) := (W2_of_ne m ρ c main_arg5 (by decide)).trans (w1_arg5 m ρ c)
theorem w2_arg6 : W2 m ρ c (Proc.devRef .tc main_arg6) = (m ((c : Thread nD τ).loc main_arg6)) := (W2_of_ne m ρ c main_arg6 (by decide)).trans (w1_arg6 m ρ c)
theorem w2_arg7 : W2 m ρ c (Proc.devRef .tc main_arg7) = (m ((c : Thread nD τ).loc main_arg7)) := (W2_of_ne m ρ c main_arg7 (by decide)).trans (w1_arg7 m ρ c)

/-! ## After the second stretch -/

theorem w3_v24 : W3 m ρ c (Proc.devRef .tc main_v24) = edgeSum (Reg0.prod (m ((c : Thread nD τ).loc main_arg0)) (m ((c : Thread nD τ).loc main_arg2))) (v1 m c) (v3 m c) :=
  (s1_v24 (W2 m ρ c)).trans (by rw [w2_p, w2_v1, w2_v3])
theorem w3_v12 : W3 m ρ c (Proc.devRef .tc main_v12) = invCol (v3 m c) := (s1_v12 (W2 m ρ c)).trans (w2_v12 m ρ c)
theorem w3_r : W3 m ρ c (Proc.devRef .tc main_v14_1)
    = Reg0.prodBias (m ((c : Thread nD τ).loc main_arg0)) (m ((c : Thread nD τ).loc main_arg3)) (biasRow (m ((c : Thread nD τ).loc main_arg4))) := (s1_v14_1 (W2 m ρ c)).trans (w2_r m ρ c)
theorem w3_v1 : W3 m ρ c (Proc.devRef .tc main_v1) = v1 m c := (s1_v1 (W2 m ρ c)).trans (w2_v1 m ρ c)
theorem w3_v3 : W3 m ρ c (Proc.devRef .tc main_v3) = v3 m c := (s1_v3 (W2 m ρ c)).trans (w2_v3 m ρ c)
theorem w3_arg5 : W3 m ρ c (Proc.devRef .tc main_arg5) = (m ((c : Thread nD τ).loc main_arg5)) := (s1_arg5 (W2 m ρ c)).trans (w2_arg5 m ρ c)
theorem w3_arg6 : W3 m ρ c (Proc.devRef .tc main_arg6) = (m ((c : Thread nD τ).loc main_arg6)) := (s1_arg6 (W2 m ρ c)).trans (w2_arg6 m ρ c)
theorem w3_arg7 : W3 m ρ c (Proc.devRef .tc main_arg7) = (m ((c : Thread nD τ).loc main_arg7)) := (s1_arg7 (W2 m ρ c)).trans (w2_arg7 m ρ c)

/-! ## After the second launch -/

theorem w4_h : W4 m ρ c (Proc.devRef .tc main_v25) = hid m c :=
  (W4_arr m ρ c 3).trans ((Reg1.final3 (V3 m ρ) c).trans (by
    rw [show V3 m ρ c main_v24 = _ from w3_v24 m ρ c, show V3 m ρ c main_v12 = _ from w3_v12 m ρ c,
      show V3 m ρ c main_v14_1 = _ from w3_r m ρ c]; rfl))
theorem w4_v12 : W4 m ρ c (Proc.devRef .tc main_v12) = invCol (v3 m c) :=
  (W4_arr m ρ c 1).trans ((((dat1 (V3 m ρ) c).arrAt_in 1 rfl _).trans (A_eq1 (V3 m ρ) c 1)).trans (w3_v12 m ρ c))
theorem w4_v1 : W4 m ρ c (Proc.devRef .tc main_v1) = v1 m c := (W4_of_ne m ρ c main_v1 (by decide)).trans (w3_v1 m ρ c)
theorem w4_v3 : W4 m ρ c (Proc.devRef .tc main_v3) = v3 m c := (W4_of_ne m ρ c main_v3 (by decide)).trans (w3_v3 m ρ c)
theorem w4_arg5 : W4 m ρ c (Proc.devRef .tc main_arg5) = (m ((c : Thread nD τ).loc main_arg5)) := (W4_of_ne m ρ c main_arg5 (by decide)).trans (w3_arg5 m ρ c)
theorem w4_arg6 : W4 m ρ c (Proc.devRef .tc main_arg6) = (m ((c : Thread nD τ).loc main_arg6)) := (W4_of_ne m ρ c main_arg6 (by decide)).trans (w3_arg6 m ρ c)
theorem w4_arg7 : W4 m ρ c (Proc.devRef .tc main_arg7) = (m ((c : Thread nD τ).loc main_arg7)) := (W4_of_ne m ρ c main_arg7 (by decide)).trans (w3_arg7 m ρ c)

/-! ## After the third stretch -/

theorem w5_v35 : W5 m ρ c (Proc.devRef .tc main_v35) = edgeSum (hid m c) (v1 m c) (v3 m c) :=
  (s2_v35 (W4 m ρ c)).trans (by rw [w4_h, w4_v1, w4_v3])
theorem w5_v36 : W5 m ρ c (Proc.devRef .tc main_v36) = biasRow (m ((c : Thread nD τ).loc main_arg7)) :=
  (s2_v36 (W4 m ρ c)).trans (by rw [w4_arg7])
theorem w5_v12 : W5 m ρ c (Proc.devRef .tc main_v12) = invCol (v3 m c) := (s2_v12 (W4 m ρ c)).trans (w4_v12 m ρ c)
theorem w5_h : W5 m ρ c (Proc.devRef .tc main_v25) = hid m c := (s2_v25 (W4 m ρ c)).trans (w4_h m ρ c)
theorem w5_arg5 : W5 m ρ c (Proc.devRef .tc main_arg5) = (m ((c : Thread nD τ).loc main_arg5)) := (s2_arg5 (W4 m ρ c)).trans (w4_arg5 m ρ c)
theorem w5_arg6 : W5 m ρ c (Proc.devRef .tc main_arg6) = (m ((c : Thread nD τ).loc main_arg6)) := (s2_arg6 (W4 m ρ c)).trans (w4_arg6 m ρ c)

/-! ## The last boundary -/

/-- The result buffer at the last boundary is the result term of the arguments. -/
theorem last_eq : W6 m ρ c (Proc.devRef .tc main_v37) = res m c :=
  (W6_arr m ρ c 6).trans ((Reg2.final6 (V5 m ρ) c).trans (by
    rw [show V5 m ρ c main_v35 = _ from w5_v35 m ρ c, show V5 m ρ c main_v12 = _ from w5_v12 m ρ c,
      show V5 m ρ c main_v25 = _ from w5_h m ρ c, show V5 m ρ c main_arg5 = _ from w5_arg5 m ρ c,
      show V5 m ρ c main_arg6 = _ from w5_arg6 m ρ c, show V5 m ρ c main_v36 = _ from w5_v36 m ρ c]; rfl))

end Cert.KernelIdeal.Chain

end
-- ==== Proof.LibRowScatter.lean ====
/-
  Row gathers and row scatter-adds read at an index.

  A gather of whole rows of an [N, C] array at a column [E, 1] of start indices gives an [E, C] array whose row e is
  the row of the operand that the e-th start index names, the index read as a signed integer and clamped into
  [0, N - 1]. An accumulating scatter of the rows of an [E, C] array of updates into an [N, C] operand at a column
  [E, 1] of scatter indices adds, on the extended reals, to the operand's entry (i, c) the entries (e, c) of every
  update row e whose index, read signed and NOT clamped, is i; a row whose index falls outside [0, N) is dropped.
  The same for a vector [E] of updates scattered into a vector [N].
-/
import Idealize.ShloMosaic.PureOps.Ideal
import Idealize.ShloMosaic.PureOps.Ideal.Laws
import Idealize.ShloMosaic.PureOps.Dims
import Idealize.ShloMosaic.PureOps.Contract
import Idealize.ShloMosaic.Lib.ValueIdx

noncomputable section

open scoped BigOperators

namespace Cert.LibRowScatter

open Idealize.ShloMosaic Idealize.ShloMosaic.ValueIdx

/-- The operand row the e-th start index names in a gather: read signed, clamped into [0, N - 1]. -/
def gatherRow {E N w : ℕ} (hN : 0 < N) (idx : IVec ⟨2, ![E, 1]⟩ w) (e : Fin E) : Fin N :=
  ⟨min (idx (ix2 e (0 : Fin 1))).toInt.toNat (N - 1), by omega⟩

/-- The operand row the e-th update lands on in a scatter: the index read signed, none when it is outside [0, N). -/
def scatterRow {E w : ℕ} (N : ℕ) (idx : IVec ⟨2, ![E, 1]⟩ w) (e : Fin E) : Option (Fin N) :=
  if h : 0 ≤ (idx (ix2 e (0 : Fin 1))).toInt ∧ (idx (ix2 e (0 : Fin 1))).toInt < (N : ℤ) then
    some ⟨(idx (ix2 e (0 : Fin 1))).toInt.toNat, by omega⟩
  else none

/-- A row gather at (e, c) is the operand at (the row the e-th start index names, c). -/
theorem rowGather_apply {α : Type} {N C E w : ℕ} (hN : 0 < N)
    (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C])
    (x : (⟨2, ![N, C]⟩ : Shape).Idx → α) (idx : IVec ⟨2, ![E, 1]⟩ w) (e : Fin E) (c : Fin C) :
    Host.gather d x idx (ix2 e c) = x (ix2 (gatherRow hN idx e) c) := by
  obtain ⟨od, cd, ob, sb, sm, iv, ss, wf⟩ := d
  dsimp only at h1 h2 h3 h4 h5 h6 h7
  subst h1 h2 h3 h4 h5 h6 h7
  have h10 : ¬ (1 : Fin 2) = 0 := by decide
  unfold Host.gather
  congr 1
  funext a
  refine Fin.ext ?_
  match a with
  | ⟨0, _⟩ =>
    -- axis 0: the clamped start index, no batching and no offset coordinate
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : ∀ (D : GatherDims ⟨2, ![N, C]⟩ ⟨2, ![E, 1]⟩ ⟨2, ![E, C]⟩) (hD : D = ⟨[1], [0], [], [], [0], 1, ![1, C], wf⟩)
        (k : Fin D.startIndexMap.length), D.siIdx (ix2 e c) k = ix2 e (0 : Fin 1) := by
      intro D hD k
      subst hD
      funext b; refine Fin.ext ?_
      match b with
      | ⟨0, _⟩ => rfl
      | ⟨1, _⟩ =>
        have : k.val = 0 := by have := k.isLt; simpa using this
        show k.val = 0
        exact this
    rw [hsi _ rfl]
    rfl
  | ⟨1, _⟩ =>
    -- axis 1: start 0 (the start index map does not name it), the offset coordinate is the result's column
    show GatherDims.start _ _ idx 1 + GatherDims.batchCoord _ _ 1 + GatherDims.offCoord _ _ 1 = _
    rw [GatherDims.batchCoord_eq_zero _ _ _ List.not_mem_nil]
    unfold GatherDims.start
    rw [dif_neg (fun h => h10 (List.mem_singleton.mp h))]
    unfold GatherDims.offCoord
    rw [dif_pos ((GatherDims.mem_sKept _ _).mpr ⟨fun h => h10 (List.mem_singleton.mp h), List.not_mem_nil⟩)]
    simp only [Nat.add_zero, Nat.zero_add]
    rfl

/-- An update lands on the operand index k exactly when, on every axis, start plus window coordinate is k's coordinate. -/
private theorem resultIdx?_eq_some_iff {s si u : Shape} (D : ScatterDims s si u) {w : ℕ} (j : u.Idx) (idx : IVec si w)
    (k : s.Idx) :
    D.resultIdx? j idx = some k ↔ ∀ a, D.start j idx a + (D.window j a : ℤ) = ((k a).val : ℤ) := by
  unfold ScatterDims.resultIdx?
  split
  · rename_i h
    constructor
    · intro hk a
      have hv := congrArg Fin.val (congrFun (Option.some.inj hk) a)
      simp only at hv
      have := h a
      omega
    · intro hk
      congr 1
      funext a
      refine Fin.ext ?_
      have := hk a
      show (D.start j idx a + D.window j a).toNat = (k a).val
      omega
  · rename_i h
    constructor
    · intro hk; exact absurd hk (by simp)
    · intro hk
      exfalso; apply h
      intro a
      have := hk a
      have := (k a).isLt
      omega

/-- The e-th update lands on row i exactly when its index, read signed, is i. -/
private theorem scatterRow_eq_some_iff {E w : ℕ} (N : ℕ) (idx : IVec ⟨2, ![E, 1]⟩ w) (e : Fin E) (i : Fin N) :
    scatterRow N idx e = some i ↔ (idx (ix2 e (0 : Fin 1))).toInt = (i.val : ℤ) := by
  unfold scatterRow
  split
  · rename_i h
    constructor
    · intro hk
      have hv := congrArg Fin.val (Option.some.inj hk)
      simp only at hv
      omega
    · intro hk
      congr 1
      refine Fin.ext ?_
      show (idx (ix2 e (0 : Fin 1))).toInt.toNat = i.val
      omega
  · rename_i h
    constructor
    · intro hk; exact absurd hk (by simp)
    · intro hk; exfalso; apply h; have := i.isLt; omega

/-- A row scatter-add on the extended reals at (i, c): the operand's entry plus the entries (e, c) of the update rows
    that land on row i. -/
theorem rowScatterAdd_apply {N C E w : ℕ} {φ : FTy}
    (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1)
    (x : FVec Ideal ⟨2, ![N, C]⟩ φ) (idx : IVec ⟨2, ![E, 1]⟩ w) (upd : FVec Ideal ⟨2, ![E, C]⟩ φ)
    (i : Fin N) (c : Fin C) :
    Host.scatterAdd (F := Ideal) d x idx upd (ix2 i c)
      = x (ix2 i c) + ∑ e ∈ Finset.univ.filter (fun e : Fin E => scatterRow N idx e = some i), upd (ix2 e c) := by
  obtain ⟨uw, iw, sd, iv, wf⟩ := d
  dsimp only at h1 h2 h3 h4
  subst h1 h2 h3 h4
  have h10 : ¬ (1 : Fin 2) = 0 := by decide
  -- the two coordinates of the landing index of update (e, c')
  have hstart0 : ∀ (D : ScatterDims ⟨2, ![N, C]⟩ ⟨2, ![E, 1]⟩ ⟨2, ![E, C]⟩) (hD : D = ⟨[1], [0], [0], 1, wf⟩)
      (e : Fin E) (c' : Fin C), D.start (ix2 e c') idx 0 = (idx (ix2 e (0 : Fin 1))).toInt := by
    intro D hD e c'
    subst hD
    unfold ScatterDims.start
    rw [dif_pos (List.mem_singleton.mpr rfl)]
    congr 2
    funext b; refine Fin.ext ?_
    match b with
    | ⟨0, _⟩ => rfl
    | ⟨1, _⟩ => rfl
  have hstart1 : ∀ (D : ScatterDims ⟨2, ![N, C]⟩ ⟨2, ![E, 1]⟩ ⟨2, ![E, C]⟩) (hD : D = ⟨[1], [0], [0], 1, wf⟩)
      (e : Fin E) (c' : Fin C), D.start (ix2 e c') idx 1 = 0 := by
    intro D hD e c'
    subst hD
    unfold ScatterDims.start
    rw [dif_neg (fun h => h10 (List.mem_singleton.mp h))]
  have hwin0 : ∀ (D : ScatterDims ⟨2, ![N, C]⟩ ⟨2, ![E, 1]⟩ ⟨2, ![E, C]⟩) (hD : D = ⟨[1], [0], [0], 1, wf⟩)
      (e : Fin E) (c' : Fin C), D.window (ix2 e c') 0 = 0 := by
    intro D hD e c'
    subst hD
    unfold ScatterDims.window
    rw [dif_neg]
    intro h
    have : (0 : Fin 2) ∈ (List.finRange 2).filter (· ∉ [(0 : Fin 2)]) := h
    simp at this
  have hwin1 : ∀ (D : ScatterDims ⟨2, ![N, C]⟩ ⟨2, ![E, 1]⟩ ⟨2, ![E, C]⟩) (hD : D = ⟨[1], [0], [0], 1, wf⟩)
      (e : Fin E) (c' : Fin C), D.window (ix2 e c') 1 = c'.val := by
    intro D hD e c'
    subst hD
    unfold ScatterDims.window
    rw [dif_pos]
    · rfl
    · show (1 : Fin 2) ∈ (List.finRange 2).filter (· ∉ [(0 : Fin 2)])
      decide
  -- update (e, c') lands on (i, c) exactly when c' = c and row e lands on row i
  have hP : ∀ (D : ScatterDims ⟨2, ![N, C]⟩ ⟨2, ![E, 1]⟩ ⟨2, ![E, C]⟩) (hD : D = ⟨[1], [0], [0], 1, wf⟩)
      (e : Fin E) (c' : Fin C),
      D.resultIdx? (ix2 e c') idx = some (ix2 i c) ↔ (c' = c ∧ scatterRow N idx e = some i) := by
    intro D hD e c'
    rw [resultIdx?_eq_some_iff, scatterRow_eq_some_iff]
    have a0 := hstart0 D hD e c'
    have a1 := hstart1 D hD e c'
    have b0 := hwin0 D hD e c'
    have b1 := hwin1 D hD e c'
    constructor
    · intro h
      have g0 := h 0
      have g1 := h 1
      rw [a0, b0] at g0
      rw [a1, b1] at g1
      have g0' : (idx (ix2 e (0 : Fin 1))).toInt + ((0 : ℕ) : ℤ) = (i.val : ℤ) := g0
      have g1' : (0 : ℤ) + (c'.val : ℤ) = (c.val : ℤ) := g1
      exact ⟨Fin.ext (by omega), by omega⟩
    · rintro ⟨hc, hz⟩ a
      match a with
      | ⟨0, _⟩ =>
        show D.start (ix2 e c') idx 0 + (D.window (ix2 e c') 0 : ℤ) = (i.val : ℤ)
        rw [a0, b0]; omega
      | ⟨1, _⟩ =>
        show D.start (ix2 e c') idx 1 + (D.window (ix2 e c') 1 : ℤ) = (c.val : ℤ)
        rw [a1, b1, hc]; omega
  rw [Host.scatterAdd, Ideal.hostScatterAdd_def]
  unfold Ideal.hostScatterAdd
  congr 1
  rw [Finset.sum_filter, Finset.sum_filter, sum_idx2]
  refine Finset.sum_congr rfl fun e _ => ?_
  simp only [hP _ rfl]
  by_cases hQ : scatterRow N idx e = some i
  · simp only [hQ, and_true, Finset.sum_ite_eq', Finset.mem_univ, if_true]
  · simp only [hQ, and_false, if_false, Finset.sum_const_zero]

/-- A vector scatter-add on the extended reals at i: the operand's entry plus the updates that land on i. -/
theorem vecScatterAdd_apply {N E w : ℕ} {φ : FTy}
    (d : ScatterDims ⟨1, ![N]⟩ ⟨2, ![E, 1]⟩ ⟨1, ![E]⟩)
    (h1 : d.updateWindowDims = []) (h2 : d.insertedWindowDims = [0]) (h3 : d.scatterDimsToOperandDims = [0])
    (h4 : d.indexVectorDim = 1)
    (x : FVec Ideal ⟨1, ![N]⟩ φ) (idx : IVec ⟨2, ![E, 1]⟩ w) (upd : FVec Ideal ⟨1, ![E]⟩ φ) (i : Fin N) :
    Host.scatterAdd (F := Ideal) d x idx upd (ix1 i)
      = x (ix1 i) + ∑ e ∈ Finset.univ.filter (fun e : Fin E => scatterRow N idx e = some i), upd (ix1 e) := by
  obtain ⟨uw, iw, sd, iv, wf⟩ := d
  dsimp only at h1 h2 h3 h4
  subst h1 h2 h3 h4
  -- the one coordinate of the landing index of update e
  have hstart0 : ∀ (D : ScatterDims ⟨1, ![N]⟩ ⟨2, ![E, 1]⟩ ⟨1, ![E]⟩) (hD : D = ⟨[], [0], [0], 1, wf⟩)
      (e : Fin E), D.start (ix1 e) idx 0 = (idx (ix2 e (0 : Fin 1))).toInt := by
    intro D hD e
    subst hD
    unfold ScatterDims.start
    rw [dif_pos (List.mem_singleton.mpr rfl)]
    congr 2
    funext b; refine Fin.ext ?_
    match b with
    | ⟨0, _⟩ => rfl
    | ⟨1, _⟩ => rfl
  have hwin0 : ∀ (D : ScatterDims ⟨1, ![N]⟩ ⟨2, ![E, 1]⟩ ⟨1, ![E]⟩) (hD : D = ⟨[], [0], [0], 1, wf⟩)
      (e : Fin E), D.window (ix1 e) 0 = 0 := by
    intro D hD e
    subst hD
    unfold ScatterDims.window
    rw [dif_neg]
    intro h
    have : (0 : Fin 1) ∈ (List.finRange 1).filter (· ∉ [(0 : Fin 1)]) := h
    simp at this
  -- update e lands on i exactly when its index, read signed, is i
  have hP : ∀ (D : ScatterDims ⟨1, ![N]⟩ ⟨2, ![E, 1]⟩ ⟨1, ![E]⟩) (hD : D = ⟨[], [0], [0], 1, wf⟩)
      (e : Fin E), D.resultIdx? (ix1 e) idx = some (ix1 i) ↔ scatterRow N idx e = some i := by
    intro D hD e
    rw [resultIdx?_eq_some_iff, scatterRow_eq_some_iff]
    have a0 := hstart0 D hD e
    have b0 := hwin0 D hD e
    constructor
    · intro h
      have g0 := h 0
      rw [a0, b0] at g0
      have g0' : (idx (ix2 e (0 : Fin 1))).toInt + ((0 : ℕ) : ℤ) = (i.val : ℤ) := g0
      omega
    · intro hz a
      match a with
      | ⟨0, _⟩ =>
        show D.start (ix1 e) idx 0 + (D.window (ix1 e) 0 : ℤ) = (i.val : ℤ)
        rw [a0, b0]; omega
  rw [Host.scatterAdd, Ideal.hostScatterAdd_def]
  unfold Ideal.hostScatterAdd
  congr 1
  -- a rank-1 index set is its one coordinate's range
  let eqv : (⟨1, ![E]⟩ : Shape).Idx ≃ Fin E :=
    { toFun := fun j => j 0, invFun := fun e => ix1 e, left_inv := fun j => (eq_ix1 j).symm, right_inv := fun _ => rfl }
  rw [Finset.sum_filter, Finset.sum_filter, ← Equiv.sum_comp eqv.symm]
  refine Finset.sum_congr rfl fun e _ => ?_
  exact if_congr (hP _ rfl e) rfl rfl

end Cert.LibRowScatter

end
-- ==== Proof.Spec.lean ====
/-
  Two layers of mean-aggregating graph convolution, in two arrangements, entry by entry on the extended reals.

  A graph has 50000 nodes and 800000 edges; edge e carries messages from the node its source index names (read
  signed, clamped into range) to the node its target index names (read signed; an edge whose target is out of range
  delivers nothing). With cnt i the number of edges delivered to node i and c i = max (cnt i, 1), a layer sends node
  features X to (mean over delivered edges of X at the source) · Wl + X · Wr + b.

  The REFERENCE arrangement divides the summed messages by c i and then multiplies by Wl. The KERNEL arrangement
  multiplies by the reciprocal 1 / c i instead of dividing, and in the first layer multiplies every node's features by
  Wl BEFORE summing over edges. Both are spelt out here index by index, every sum with the zero or one words the
  programs start it from, so that each program's result is one of these functions by unfolding alone; that the two
  agree when the features and the first weight array are finite is proved separately.
-/
import proofs.«100753_j39170101740217_2_alg».proof.Proof.LibRowScatter
import Idealize.ShloMosaic.PureOps.Ideal
import Idealize.ShloMosaic.Lib.ValueIdx

noncomputable section

open scoped BigOperators

namespace Cert.Sage

open Idealize.ShloMosaic Idealize.ShloMosaic.ValueIdx Cert.LibRowScatter

abbrev Nn : ℕ := 50000
abbrev Ne : ℕ := 800000

/-- The float words the programs start their sums from and clamp with. -/
abbrev zeroW : EReal := Ideal.ofBits .f32 0x00000000#32
abbrev oneW : EReal := Ideal.ofBits .f32 0x3F800000#32

variable (src tgt : IVec ⟨2, ![Ne, 1]⟩ 32)

/-- The edges delivered to node i. -/
def inEdges (i : Fin Nn) : Finset (Fin Ne) := Finset.univ.filter (fun e : Fin Ne => scatterRow Nn tgt e = some i)

/-- The node edge e reads from. -/
def srcOf (e : Fin Ne) : Fin Nn := gatherRow (N := Nn) (by decide) src e

/-- The number of edges delivered to node i, as the programs count it: zero plus a one per edge. -/
def cnt (i : Fin Nn) : EReal := zeroW + ∑ e ∈ inEdges tgt i, oneW

/-- The count clamped below by one. -/
def cmax (i : Fin Nn) : EReal := max (cnt tgt i) oneW

/-- The reciprocal of the clamped count. -/
def inv (i : Fin Nn) : EReal := Ideal.div oneW (cmax tgt i)

/-- The sum over the edges delivered to node i of a node function read at each edge's source. -/
def aggSum (f : Fin Nn → EReal) (i : Fin Nn) : EReal := zeroW + ∑ e ∈ inEdges tgt i, f (srcOf src e)

section Layers
variable (X : (⟨2, ![Nn, 96]⟩ : Shape).Idx → EReal) (Wl1 Wr1 : (⟨2, ![96, 64]⟩ : Shape).Idx → EReal)
  (b1 : (⟨1, ![64]⟩ : Shape).Idx → EReal) (Wl2 Wr2 : (⟨2, ![64, 64]⟩ : Shape).Idx → EReal) (b2 : (⟨1, ![64]⟩ : Shape).Idx → EReal)

/-- Kernel arrangement, hidden layer: transform, then sum over edges, then scale by the reciprocal count. -/
def hK (i : Fin Nn) (q : Fin 64) : EReal :=
  max (aggSum src tgt (fun n => ∑ k : Fin 96, X (ix2 n k) * Wl1 (ix2 k q)) i * inv tgt i
        + ((∑ k : Fin 96, X (ix2 i k) * Wr1 (ix2 k q)) + b1 (ix1 q))) zeroW

/-- Reference arrangement, hidden layer: sum over edges, divide by the count, then transform. -/
def hR (i : Fin Nn) (q : Fin 64) : EReal :=
  max (((∑ k : Fin 96, Ideal.div (aggSum src tgt (fun n => X (ix2 n k)) i) (cmax tgt i) * Wl1 (ix2 k q))
        + ∑ k : Fin 96, X (ix2 i k) * Wr1 (ix2 k q)) + b1 (ix1 q)) zeroW

/-- Kernel arrangement, output layer over hidden features H. -/
def outOfK (H : Fin Nn → Fin 64 → EReal) (i : Fin Nn) (q : Fin 64) : EReal :=
  ((∑ k : Fin 64, (aggSum src tgt (fun n => H n k) i * inv tgt i) * Wl2 (ix2 k q))
      + ∑ k : Fin 64, H i k * Wr2 (ix2 k q)) + b2 (ix1 q)

/-- Reference arrangement, output layer over hidden features H. -/
def outOfR (H : Fin Nn → Fin 64 → EReal) (i : Fin Nn) (q : Fin 64) : EReal :=
  ((∑ k : Fin 64, Ideal.div (aggSum src tgt (fun n => H n k) i) (cmax tgt i) * Wl2 (ix2 k q))
      + ∑ k : Fin 64, H i k * Wr2 (ix2 k q)) + b2 (ix1 q)

/-- The kernel arrangement's result array. -/
def outK : (⟨2, ![Nn, 64]⟩ : Shape).Idx → EReal := fun j =>
  outOfK src tgt Wl2 Wr2 b2 (hK src tgt X Wl1 Wr1 b1) ⟨(j 0).val, idx2_lt0 j⟩ ⟨(j 1).val, idx2_lt1 j⟩

/-- The reference arrangement's result array. -/
def outR : (⟨2, ![Nn, 64]⟩ : Shape).Idx → EReal := fun j =>
  outOfR src tgt Wl2 Wr2 b2 (hR src tgt X Wl1 Wr1 b1) ⟨(j 0).val, idx2_lt0 j⟩ ⟨(j 1).val, idx2_lt1 j⟩

theorem outK_apply (i : Fin Nn) (q : Fin 64) :
    outK src tgt X Wl1 Wr1 b1 Wl2 Wr2 b2 (ix2 i q) = outOfK src tgt Wl2 Wr2 b2 (hK src tgt X Wl1 Wr1 b1) i q := rfl

theorem outR_apply (i : Fin Nn) (q : Fin 64) :
    outR src tgt X Wl1 Wr1 b1 Wl2 Wr2 b2 (ix2 i q) = outOfR src tgt Wl2 Wr2 b2 (hR src tgt X Wl1 Wr1 b1) i q := rfl

end Layers

end Cert.Sage

end
-- ==== Proof.KernelValue.lean ====
/-
  The idealized kernel's result is the kernel arrangement of the specification.

  Read at an index, the edge sum of a node array is the sum over the edges delivered to a node of the array's row at
  each edge's source; the reciprocal-count column is the reciprocal of the clamped count of delivered edges; a bias
  row is its vector. With these the result term of the arguments unfolds, entry by entry, to the specification's
  kernel arrangement: the products first, summed along the edges, scaled, combined and rectified, and the same
  again through the second layer.
-/
import proofs.«100753_j39170101740217_2_alg».proof.Proof.KernelChain
import proofs.«100753_j39170101740217_2_alg».proof.Proof.Spec
import proofs.«100753_j39170101740217_2_alg».proof.Proof.LibRowScatter
import proofs.«100753_j39170101740217_2_alg».proof.Proof.LibColumn
import Idealize.ShloMosaic.Lib.ValueLayout

set_option maxRecDepth 16384

noncomputable section

open scoped BigOperators

namespace Cert.KernelIdeal.KValue

open Cert.KernelIdeal Cert.KernelIdeal.Gen Cert.KernelIdeal.Host Cert.LibRowScatter
open Idealize.ShloMosaic Idealize.ShloMosaic.TcCoe Idealize.ShloMosaic.ValueIdx Idealize.SL.Sem

/-- The edge sum at (i, q): the sum over the edges delivered to node i of the array at (the edge's source, q). -/
theorem edgeSum_apply (A : (⟨S50000x64, .f32⟩ : BufTy).Contents (Elt Ideal)) (v1 v3 : (⟨S800000, .i32⟩ : BufTy).Contents (Elt Ideal))
    (i : Fin 50000) (q : Fin 64) :
    edgeSum A v1 v3 (ix2 i q) = Cert.Sage.aggSum (srcCol v1) (tgtCol v3) (fun n => A (ix2 n q)) i := by
  unfold edgeSum
  rw [rowScatterAdd_apply scatter_S50000x64_S800000x1_S800000x64_1_0_0_1 rfl rfl rfl rfl]
  unfold Cert.Sage.aggSum Cert.Sage.inEdges Cert.Sage.srcOf
  refine congrArg₂ (· + ·) ?_ (Finset.sum_congr rfl fun e _ => ?_)
  · exact Cert.LibColumn.bcastInDim_scalar_apply _ _ _ ix0
  · exact rowGather_apply (by decide) gather_S50000x64_S800000x1_S800000x64_1_0_n_n_0_1_164 rfl rfl rfl rfl rfl rfl rfl A (srcCol v1) e q

/-- The host's quotient of two arrays is the quotient of their entries. -/
theorem hostDivf_apply {s : Shape} {φ : FTy} (a b : FVec Ideal s φ) (i : s.Idx) :
    Host.divf (F := Ideal) a b i = Ideal.div (a i) (b i) := rfl

/-- The reciprocal-count column at row i. -/
theorem invCol_apply (v3 : (⟨S800000, .i32⟩ : BufTy).Contents (Elt Ideal)) (i : Fin 50000) :
    invCol v3 (ix2 i (0 : Fin 1)) = Cert.Sage.inv (tgtCol v3) i := by
  unfold invCol
  rw [Cert.LibColumn.shapeCast_a_a1_apply]
  have hb1 : ∀ j, (broadcastInDim S50000 ![] bcast_S_S50000 (constant (F := Ideal) S_ .f32 0x3F800000#32)) j = Cert.Sage.oneW :=
    fun j => Cert.LibColumn.bcastInDim_scalar_apply _ _ j ix0
  have hb0 : ∀ j, (broadcastInDim S50000 ![] bcast_S_S50000 (constant (F := Ideal) S_ .f32 0x00000000#32)) j = Cert.Sage.zeroW :=
    fun j => Cert.LibColumn.bcastInDim_scalar_apply _ _ j ix0
  have hbe : ∀ j, (broadcastInDim S800000 ![] bcast_S_S800000 (constant (F := Ideal) S_ .f32 0x3F800000#32)) j = Cert.Sage.oneW :=
    fun j => Cert.LibColumn.bcastInDim_scalar_apply _ _ j ix0
  rw [hostDivf_apply, maximumf_apply]
  rw [hb1, vecScatterAdd_apply scatter_S50000_S800000x1_S800000_n_0_0_1 rfl rfl rfl rfl, hb0]
  unfold Cert.Sage.inv Cert.Sage.cmax Cert.Sage.cnt Cert.Sage.inEdges
  simp only [hbe]

/-- A bias row at (0, q) is the vector's entry q. -/
theorem biasRow_apply (b : (⟨S64, .f32⟩ : BufTy).Contents (Elt Ideal)) (q : Fin 64) :
    biasRow b (ix2 (0 : Fin 1) q) = b (ix1 q) := shapeCast_a_1a_apply b _ 0 q

variable (m : (ℓ : Loc nD τ sig) → Buf (Elt Ideal) ℓ) (c : Dev nD)

/-- The hidden features, entry by entry. -/
theorem hid_apply (n : Fin 50000) (k : Fin 64) :
    Chain.hid m c (ix2 n k)
      = Cert.Sage.hK (srcCol (Chain.v1 m c)) (tgtCol (Chain.v3 m c)) (m ((c : Thread nD τ).loc main_arg0)) (m ((c : Thread nD τ).loc main_arg2)) (m ((c : Thread nD τ).loc main_arg3)) (m ((c : Thread nD τ).loc main_arg4)) n k := by
  unfold Chain.hid
  rw [Reg1.combine_apply, edgeSum_apply, invCol_apply]
  simp only [Reg0.prod_apply, Reg0.prodBias_apply, biasRow_apply]
  rfl

/-- The result, entry by entry, is the kernel arrangement. -/
theorem res_eq : Chain.res m c
    = Cert.Sage.outK (srcCol (Chain.v1 m c)) (tgtCol (Chain.v3 m c)) (m ((c : Thread nD τ).loc main_arg0)) (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) := by
  funext j
  obtain ⟨i, q, rfl⟩ : ∃ (i : Fin 50000) (q : Fin 64), j = ix2 i q := ⟨j 0, j 1, eq_ix2 j⟩
  rw [Cert.Sage.outK_apply]
  unfold Chain.res Cert.Sage.outOfK
  rw [Reg2.layer_apply]
  simp only [edgeSum_apply, invCol_apply, biasRow_apply, hid_apply]

end Cert.KernelIdeal.KValue

end
-- ==== Proof.Algebra.lean ====
/-
  The two arrangements of the two-layer mean-aggregating convolution agree on finite features and first weights.

  The clamped count c i is a real number at least one, so dividing by it is multiplying by its reciprocal, on every
  extended real: that alone identifies the two output layers once the hidden layers agree. For the hidden layer the
  kernel sums the transformed rows (sum over edges e of sum over k of x (src e, k) · w (k, q)) and then scales, the
  reference scales each column's sum and then transforms (sum over k of ((sum over e of x (src e, k)) / c) · w (k, q)):
  with x and w real these are the same real number, by exchanging the two finite sums and distributing the products.
  Finiteness is used exactly there: on the extended reals a product does not distribute over a sum of infinities.
-/
import proofs.«100753_j39170101740217_2_alg».proof.Proof.Spec
import Idealize.ShloMosaic.Lib.IdealHost
import Idealize.ShloMosaic.PureOps.Ideal.Laws

noncomputable section

open scoped BigOperators

namespace Cert.Sage

open Idealize.ShloMosaic Idealize.ShloMosaic.ValueIdx Cert.LibRowScatter

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of ones is the number of terms. -/
theorem sum_one_eq {ι : Type} (s : Finset ι) : (∑ _e ∈ s, (1 : EReal)) = ((s.card : ℝ) : EReal) := by
  have h : ((s.card : ℝ)) = ∑ _e ∈ s, (1 : ℝ) := by rw [Finset.sum_const, nsmul_eq_mul, mul_one]
  rw [h, coe_sum]
  exact Finset.sum_congr rfl fun _ _ => EReal.coe_one.symm

theorem zeroW_eq : zeroW = 0 := Ideal.ofBits_zero_f32
theorem oneW_eq : oneW = 1 := Ideal.ofBits_one_f32

variable (src tgt : IVec ⟨2, ![Ne, 1]⟩ 32)

/-- The clamped count is a real number, and not zero. -/
theorem cmax_real (i : Fin Nn) : ∃ m : ℝ, m ≠ 0 ∧ cmax tgt i = (m : EReal) := by
  refine ⟨max ((inEdges tgt i).card : ℝ) 1, ?_, ?_⟩
  · have : (1 : ℝ) ≤ max ((inEdges tgt i).card : ℝ) 1 := le_max_right _ _
    intro h; rw [h] at this; linarith
  · unfold cmax cnt
    rw [zeroW_eq, oneW_eq, zero_add, EReal.coe_strictMono.monotone.map_max, EReal.coe_one, sum_one_eq]

/-- Dividing by the clamped count is multiplying by its reciprocal. -/
theorem div_cmax (i : Fin Nn) (y : EReal) : Ideal.div y (cmax tgt i) = y * inv tgt i := by
  obtain ⟨m, hm, e⟩ := cmax_real tgt i
  unfold inv
  rw [e, Ideal.div_coe hm, Ideal.div_coe hm, oneW_eq, one_mul]

theorem inv_real (i : Fin Nn) : ∃ r : ℝ, inv tgt i = (r : EReal) := by
  obtain ⟨m, hm, e⟩ := cmax_real tgt i
  refine ⟨1 / m, ?_⟩
  unfold inv
  rw [e, Ideal.div_coe hm, oneW_eq, one_mul]

section Layers
variable (X : (⟨2, ![Nn, 96]⟩ : Shape).Idx → EReal) (Wl1 Wr1 : (⟨2, ![96, 64]⟩ : Shape).Idx → EReal)
  (b1 : (⟨1, ![64]⟩ : Shape).Idx → EReal) (Wl2 Wr2 : (⟨2, ![64, 64]⟩ : Shape).Idx → EReal) (b2 : (⟨1, ![64]⟩ : Shape).Idx → EReal)

/-- Transform-then-average is average-then-transform, for real features and weights. -/
theorem mean_transform (hX : ∀ j, ∃ r : ℝ, X j = (r : EReal)) (hW : ∀ j, ∃ r : ℝ, Wl1 j = (r : EReal)) (i : Fin Nn) (q : Fin 64) :
    aggSum src tgt (fun n => ∑ k : Fin 96, X (ix2 n k) * Wl1 (ix2 k q)) i * inv tgt i
      = ∑ k : Fin 96, Ideal.div (aggSum src tgt (fun n => X (ix2 n k)) i) (cmax tgt i) * Wl1 (ix2 k q) := by
  choose x hx using hX
  choose w hw using hW
  obtain ⟨r, hr⟩ := inv_real tgt i
  simp only [div_cmax]
  unfold aggSum
  rw [hr, zeroW_eq]
  simp only [hx, hw, zero_add, ← EReal.coe_mul, ← coe_sum]
  refine congrArg _ ?_
  simp only [Finset.sum_mul]
  rw [Finset.sum_comm]
  refine Finset.sum_congr rfl fun k _ => Finset.sum_congr rfl fun e _ => ?_
  ring

/-- The hidden layers agree. -/
theorem hK_eq_hR (hX : ∀ j, ∃ r : ℝ, X j = (r : EReal)) (hW : ∀ j, ∃ r : ℝ, Wl1 j = (r : EReal)) :
    hK src tgt X Wl1 Wr1 b1 = hR src tgt X Wl1 Wr1 b1 := by
  funext i q
  unfold hK hR
  rw [mean_transform src tgt X Wl1 hX hW i q, add_assoc]

/-- The two arrangements give one result array. -/
theorem outK_eq_outR (hX : ∀ j, ∃ r : ℝ, X j = (r : EReal)) (hW : ∀ j, ∃ r : ℝ, Wl1 j = (r : EReal)) :
    outK src tgt X Wl1 Wr1 b1 Wl2 Wr2 b2 = outR src tgt X Wl1 Wr1 b1 Wl2 Wr2 b2 := by
  funext j
  unfold outK outR outOfK outOfR
  rw [hK_eq_hR src tgt X Wl1 Wr1 b1 hX hW]
  simp only [div_cmax]

end Layers

end Cert.Sage

end
-- ==== Proof.Finite.lean ====
/-
  Finite inputs are real numbers.

  The precondition says, for each float argument, that every entry's absolute value is below the word of +infinity:
  a conjunction of eight "all" reductions. On the extended reals the absolute value of x is max (x, -x), which is
  below +infinity exactly when x is neither infinity, that is, when x is a real number. Taken from the conjunction
  here: the node features and the first layer's neighbour weights, the two arrays whose finiteness the equivalence
  of the two arrangements uses.
-/
import proofs.«100753_j39170101740217_2_alg».proof.Defs
import Idealize.ShloMosaic.Lib.ReduceAll
import Idealize.ShloMosaic.Lib.Affine
import Idealize.ShloMosaic.Lib.ValueIdx

set_option maxRecDepth 16384

noncomputable section

namespace Cert.Finite

open Idealize.ShloMosaic Idealize.ShloMosaic.ValueIdx Cert.Pre_finite_inputs

/-- The word 0x7F800000 is +infinity. -/
theorem inf_word : Ideal.ofBits .f32 0x7F800000#32 = (⊤ : EReal) := by simp [Ideal.ofBits, Ideal.ieee]

/-- An extended real whose absolute value compares below +infinity is a real number. -/
theorem real_of_abs_lt (x : EReal) (h : Ideal.cmp .olt (max x (-x)) (Ideal.ofBits .f32 0x7F800000#32) = 1#1) :
    ∃ r : ℝ, x = (r : EReal) := by
  rw [inf_word] at h
  have hlt : max x (-x) < ⊤ := by
    unfold Ideal.cmp at h
    by_contra hn
    simp [hn] at h
  induction x using EReal.rec with
  | bot => simp at hlt
  | coe r => exact ⟨r, rfl⟩
  | top => simp at hlt

instance : Subsingleton S_.Idx := ⟨fun a b => funext fun d => d.elim0⟩

variable [hP : Cert.Pre_finite_inputs.Facts]

/-- Under the precondition the node features and the first neighbour weights are real, entry by entry. -/
theorem reals_of_pre (x0 : FVec Ideal S50000x96 .f32) (x1 : IVec S2x800000 32) (x2 x3 : FVec Ideal S96x64 .f32)
    (x4 : FVec Ideal S64 .f32) (x5 x6 : FVec Ideal S64x64 .f32) (x7 : FVec Ideal S64 .f32)
    (h : Cert.Pre_finite_inputs.fn (F := Ideal) x0 x1 x2 x3 x4 x5 x6 x7 = fun _ => 1#1) :
    (∀ j, ∃ r : ℝ, x0 j = (r : EReal)) ∧ (∀ j, ∃ r : ℝ, x2 j = (r : EReal)) := by
  have h0 := congrFun h ix0
  unfold Cert.Pre_finite_inputs.fn Cert.Pre_finite_inputs.fn_part1 at h0
  dsimp only [andi] at h0
  obtain ⟨h28, -⟩ := IntOp.andi_eq_one.1 h0
  obtain ⟨h23, -⟩ := IntOp.andi_eq_one.1 h28
  obtain ⟨h18, -⟩ := IntOp.andi_eq_one.1 h23
  obtain ⟨h13, -⟩ := IntOp.andi_eq_one.1 h18
  obtain ⟨h8, -⟩ := IntOp.andi_eq_one.1 h13
  obtain ⟨h3, h7⟩ := IntOp.andi_eq_one.1 h8
  refine ⟨fun j => ?_, fun j => ?_⟩
  · exact real_of_abs_lt (x0 j) (Host.reduce_andi_all _ _ _ _ ix0 h3 j)
  · exact real_of_abs_lt (x2 j) (Host.reduce_andi_all _ _ _ _ ix0 h7 j)

end Cert.Finite

end
-- ==== Proof.Bridge.lean ====
/-
  The two programs read the edge array the same way.

  Each program cuts the edge array into its source row and its target row, moves a negative source index up by the
  number of nodes, and lays both out as columns. The kernel's program and the reference spell these operations with
  the same functions on the same shapes, so the two source columns are one array and the two target columns are one
  array, by unfolding the names.
-/
import proofs.«100753_j39170101740217_2_alg».proof.Proof.KernelChain
import proofs.«100753_j39170101740217_2_alg».proof.Proof.Gen.ReferenceIdeal.Read

set_option maxRecDepth 16384

noncomputable section

namespace Cert.Bridge

open Idealize.ShloMosaic

theorem src_eq (EI : (⟨Cert.ReferenceIdeal.S2x800000, .i32⟩ : BufTy).Contents (Elt Ideal)) :
    Cert.ReferenceIdeal.Read.val_main_v9 (F := Ideal) EI = Cert.KernelIdeal.Host.srcCol (Cert.KernelIdeal.Host.edgeRow0 EI) := rfl

theorem tgt_eq (EI : (⟨Cert.ReferenceIdeal.S2x800000, .i32⟩ : BufTy).Contents (Elt Ideal)) :
    Cert.ReferenceIdeal.Read.val_main_v12 (F := Ideal) EI = Cert.KernelIdeal.Host.tgtCol (Cert.KernelIdeal.Host.edgeRow1 EI) := rfl

end Cert.Bridge

end
-- ==== Proof.LibPlainDot.lean ====
/-
  A plain matrix product read at an index.

  The dimension numbers of the product of an `[R, K]` array with a `[K, C]` array into `[R, C]` — contract the
  left operand's axis 1 with the right operand's axis 0, no batch axes — are the record `plainDot` below, whose
  side condition is a parameter: any record with the same lists is one of them by unfolding. On the extended reals
  the product into a zero accumulator, read at `(p, q)`, is the sum over `k` of `lhs (p, k) * rhs (k, q)`.
-/
import Idealize.ShloMosaic.PureOps.Ideal
import Idealize.ShloMosaic.PureOps.Ideal.Laws
import Idealize.ShloMosaic.PureOps.Dims
import Idealize.ShloMosaic.PureOps.Contract
import Idealize.ShloMosaic.Lib.ValueIdx

noncomputable section

open scoped BigOperators

namespace Cert.LibPlainDot

open Idealize.ShloMosaic Idealize.ShloMosaic.ValueIdx

/-- The dimension numbers of a plain `[R, K] × [K, C] → [R, C]` product. -/
abbrev plainDot (R K C : Nat)
    (wf : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ where
  lhsContracting := [1]
  rhsContracting := [0]
  lhsNonContracting := [0]
  rhsNonContracting := [1]
  lhsBatch := []
  rhsBatch := []
  wf := wf

section
variable {R K C : Nat} (wf : DotDims.WF ⟨2, ![R, K]⟩ ⟨2, ![K, C]⟩ ⟨2, ![R, C]⟩ [1] [0] [0] [1] [] [])

/-- The left operand's index for output `(p, q)` and contraction coordinate `k` is `(p, k)`. -/
theorem plainDot_lhsIdx (p : Fin R) (q : Fin C) (k : Fin K) :
    (plainDot R K C wf).lhsIdx (ix2 p q) ((contrEquiv1 (plainDot R K C wf) K rfl rfl).symm k) = ix2 p k := by
  have hk := contrEquiv1_symm_val (plainDot R K C wf) K rfl rfl k
  funext a
  refine Fin.ext ?_
  match a with
  | ⟨0, _⟩ =>
    show ((plainDot R K C wf).lhsIdx (ix2 p q) ((contrEquiv1 (plainDot R K C wf) K rfl rfl).symm k) 0).val = p.val
    unfold DotDims.lhsIdx
    rw [dif_neg (show ¬(0 : Fin 2) ∈ (plainDot R K C wf).lhsBatch from List.not_mem_nil),
      dif_pos (show (0 : Fin 2) ∈ (plainDot R K C wf).lhsNonContracting from List.mem_singleton.mpr rfl)]
    rfl
  | ⟨1, _⟩ =>
    exact ((plainDot R K C wf).lhsIdx_val_of_single (cl := (1 : Fin 2)) rfl (ix2 p q) _).trans hk

/-- The right operand's index for output `(p, q)` and contraction coordinate `k` is `(k, q)`. -/
theorem plainDot_rhsIdx (p : Fin R) (q : Fin C) (k : Fin K) :
    (plainDot R K C wf).rhsIdx (ix2 p q) ((contrEquiv1 (plainDot R K C wf) K rfl rfl).symm k) = ix2 k q := by
  have hk := contrEquiv1_symm_val (plainDot R K C wf) K rfl rfl k
  funext a
  refine Fin.ext ?_
  match a with
  | ⟨0, _⟩ =>
    exact ((plainDot R K C wf).rhsIdx_val_of_single (cr := (0 : Fin 2)) rfl (ix2 p q) _).trans hk
  | ⟨1, _⟩ =>
    show ((plainDot R K C wf).rhsIdx (ix2 p q) ((contrEquiv1 (plainDot R K C wf) K rfl rfl).symm k) 1).val = q.val
    unfold DotDims.rhsIdx
    rw [dif_neg (show ¬(1 : Fin 2) ∈ (plainDot R K C wf).rhsBatch from List.not_mem_nil),
      dif_pos (show (1 : Fin 2) ∈ (plainDot R K C wf).rhsNonContracting from List.mem_singleton.mpr rfl)]
    rfl

/-- THE PLAIN PRODUCT INTO A ZERO ACCUMULATOR AT `(p, q)`: the sum over `k` of `lhs (p, k) * rhs (k, q)`. -/
theorem matmul_zero_apply {φ₁ φ₂ : FTy} (prec : Option ContractPrecision)
    (lhs : FVec Ideal ⟨2, ![R, K]⟩ φ₁) (rhs : FVec Ideal ⟨2, ![K, C]⟩ φ₂) (p : Fin R) (q : Fin C) :
    FloatOps.matmul (plainDot R K C wf) prec lhs rhs (constant ⟨2, ![R, C]⟩ .f32 0x00000000#32) (ix2 p q)
      = ∑ k : Fin K, lhs (ix2 p k) * rhs (ix2 k q) := by
  rw [Ideal.matmul_constant_zero_apply, ← Equiv.sum_comp (contrEquiv1 (plainDot R K C wf) K rfl rfl).symm]
  refine Finset.sum_congr rfl fun k _ => ?_
  rw [plainDot_lhsIdx wf p q k, plainDot_rhsIdx wf p q k]

end

end Cert.LibPlainDot

end
-- ==== Proof.LibHostDot.lean ====
/-
  The host's matrix product read at an index.

  For the dimension numbers of a plain `[R, K] × [K, C] → [R, C]` product (contract the left operand's axis 1 with
  the right operand's axis 0, no batch axes), the host's `dot_general` on the extended reals, read at `(p, q)`, is
  the sum over `k` of `lhs (p, k) * rhs (k, q)`: the same sum a product into a zero accumulator gives, whatever
  the number of rows. So a product computed row block by row block is the whole product.
-/
import proofs.«100753_j39170101740217_2_alg».proof.Proof.LibPlainDot
import Idealize.ShloMosaic.PureOps.Ideal
import Idealize.ShloMosaic.PureOps.Ideal.Laws
import Idealize.ShloMosaic.Lib.ValueIdx

noncomputable section

open scoped BigOperators

namespace Cert.LibHostDot

open Idealize.ShloMosaic Idealize.ShloMosaic.ValueIdx Cert.LibPlainDot

variable {R K C : Nat} (wf : DotDims.WF ⟨2, ![R, K]⟩ ⟨2, ![K, C]⟩ ⟨2, ![R, C]⟩ [1] [0] [0] [1] [] [])

/-- THE HOST'S PLAIN PRODUCT AT `(p, q)`: the sum over `k` of `lhs (p, k) * rhs (k, q)`. -/
theorem hostDot_apply {φ₁ φ₂ : FTy} (prec : Option ContractPrecision)
    (lhs : FVec Ideal ⟨2, ![R, K]⟩ φ₁) (rhs : FVec Ideal ⟨2, ![K, C]⟩ φ₂) (p : Fin R) (q : Fin C) :
    Host.dotGeneral (F := Ideal) (plainDot R K C wf) prec lhs rhs (ix2 p q)
      = ∑ k : Fin K, lhs (ix2 p k) * rhs (ix2 k q) := by
  simp only [Host.dotGeneral]
  rw [Ideal.dotGeneral_apply, ← Equiv.sum_comp (contrEquiv1 (plainDot R K C wf) K rfl rfl).symm]
  refine Finset.sum_congr rfl fun k _ => ?_
  rw [plainDot_lhsIdx wf p q k, plainDot_rhsIdx wf p q k]

end Cert.LibHostDot

end
-- ==== Proof.LibLayer.lean ====
/-
  One dense layer computed on a block of rows is the host's layer at those rows.

  A graph-convolution layer sends a node-feature array X [N, K] and an aggregated-message array M [N, K] to
  M · Wrel + X · Wroot + b (a bias row repeated down the rows), optionally followed by the rectifier max(·, 0). A
  tiled kernel computes it on a block of R rows at a time, with the two weight matrices and the bias row whole.
  On the extended reals the entry (p, q) of the block's result is the entry (P, q) of the host's layer on the whole
  arrays whenever row p of each block operand is row P of the whole operand: each product is the sum over the same K
  terms, and addition, the bias and the maximum with zero are entrywise. The same for a plain linear layer
  X · W + b. A change of float format is the identity on the extended reals, so the operands' formats are free.
-/
import proofs.«100753_j39170101740217_2_alg».proof.Proof.LibMatmulAt
import proofs.«100753_j39170101740217_2_alg».proof.Proof.LibHostDot
import proofs.«100753_j39170101740217_2_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.LibLayer

open Idealize.ShloMosaic Idealize.ShloMosaic.ValueIdx Cert.LibPlainDot

/-- The host's plain product [R, K] × [K, C], for any record of dimension numbers with the six lists of such a
    product, read at (p, q): the sum over k of the left operand at (p, k) times the right at (k, q). -/
theorem hostDot_record_apply {R K C : ℕ} {φ₁ φ₂ : FTy} (D : DotDims ⟨2, ![R, K]⟩ ⟨2, ![K, C]⟩ ⟨2, ![R, C]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![R, K]⟩ φ₁) (r : FVec Ideal ⟨2, ![K, C]⟩ φ₂)
    (p : Fin R) (q : Fin C) :
    Host.dotGeneral (F := Ideal) D prec l r (ix2 p q) = ∑ k : Fin K, l (ix2 p k) * r (ix2 k q) := by
  obtain ⟨lc, rc, ln, rn, lb, rb, wf⟩ := D
  dsimp only at hlc hrc hln hrn hlb hrb
  subst hlc hrc hln hrn hlb hrb
  exact Cert.LibHostDot.hostDot_apply wf prec l r p q

section
variable {R K C N : ℕ}
  (Dk : DotDims ⟨2, ![R, K]⟩ ⟨2, ![K, C]⟩ ⟨2, ![R, C]⟩)
  (klc : Dk.lhsContracting = [1]) (krc : Dk.rhsContracting = [0]) (kln : Dk.lhsNonContracting = [0])
  (krn : Dk.rhsNonContracting = [1]) (klb : Dk.lhsBatch = []) (krb : Dk.rhsBatch = [])
  (Dh : DotDims ⟨2, ![N, K]⟩ ⟨2, ![K, C]⟩ ⟨2, ![N, C]⟩)
  (hlc : Dh.lhsContracting = [1]) (hrc : Dh.rhsContracting = [0]) (hln : Dh.lhsNonContracting = [0])
  (hrn : Dh.rhsNonContracting = [1]) (hlb : Dh.lhsBatch = []) (hrb : Dh.rhsBatch = [])
include klc krc kln krn klb krb hlc hrc hln hrn hlb hrb

/-- A row block's product into the zero accumulator at (p, q) is the host's whole product at (P, q), when the
    block's row p is the array's row P and the right operands agree down column q. -/
theorem block_dot_apply {φ₁ φ₂ ψ₁ ψ₂ : FTy} (prec prec' : Option ContractPrecision)
    (a : FVec Ideal ⟨2, ![R, K]⟩ φ₁) (w : FVec Ideal ⟨2, ![K, C]⟩ φ₂)
    (A : FVec Ideal ⟨2, ![N, K]⟩ ψ₁) (W : FVec Ideal ⟨2, ![K, C]⟩ ψ₂)
    (p : Fin R) (P : Fin N) (q : Fin C)
    (ha : ∀ k : Fin K, (a (ix2 p k) : EReal) = A (ix2 P k))
    (hw : ∀ k : Fin K, (w (ix2 k q) : EReal) = W (ix2 k q)) :
    matmul Dk prec a w (constant (F := Ideal) ⟨2, ![R, C]⟩ .f32 0x00000000#32) (ix2 p q)
      = Host.dotGeneral (F := Ideal) Dh prec' A W (ix2 P q) := by
  rw [Cert.LibMatmulAt.matmul_zero_apply Dk klc krc kln krn klb krb,
    hostDot_record_apply Dh hlc hrc hln hrn hlb hrb]
  exact Finset.sum_congr rfl fun k _ => by rw [ha k, hw k]

/-- The layer M · Wrel + X · Wroot + b on a row block, at (p, q), is the host's layer on the whole arrays at (P, q). -/
theorem gconv_block_apply {φ₁ φ₂ φ₃ φ₄ : FTy}
    (a1 : FVec Ideal ⟨2, ![R, K]⟩ φ₁) (w1 : FVec Ideal ⟨2, ![K, C]⟩ φ₂)
    (a2 : FVec Ideal ⟨2, ![R, K]⟩ φ₃) (w2 : FVec Ideal ⟨2, ![K, C]⟩ φ₄)
    (brow : FVec Ideal ⟨2, ![1, C]⟩ .f32) (hbc : (⟨2, ![1, C]⟩ : Shape).Broadcasts ⟨2, ![R, C]⟩)
    (A1 A2 : FVec Ideal ⟨2, ![N, K]⟩ .f32) (W1 W2 : FVec Ideal ⟨2, ![K, C]⟩ .f32)
    (Brow : FVec Ideal ⟨2, ![1, C]⟩ .f32)
    (hbi : (⟨2, ![1, C]⟩ : Shape).BroadcastsInDim ⟨2, ![N, C]⟩ ![0, 1])
    (p : Fin R) (P : Fin N) (q : Fin C)
    (h1 : ∀ k : Fin K, (a1 (ix2 p k) : EReal) = A1 (ix2 P k))
    (hw1 : ∀ k : Fin K, (w1 (ix2 k q) : EReal) = W1 (ix2 k q))
    (h2 : ∀ k : Fin K, (a2 (ix2 p k) : EReal) = A2 (ix2 P k))
    (hw2 : ∀ k : Fin K, (w2 (ix2 k q) : EReal) = W2 (ix2 k q))
    (hb : brow (ix2 (0 : Fin 1) q) = Brow (ix2 (0 : Fin 1) q)) :
    addf (addf (matmul Dk none a1 w1 (constant (F := Ideal) ⟨2, ![R, C]⟩ .f32 0x00000000#32))
        (matmul Dk none a2 w2 (constant (F := Ideal) ⟨2, ![R, C]⟩ .f32 0x00000000#32)))
      (broadcastTo ⟨2, ![R, C]⟩ brow hbc) (ix2 p q)
    = addf (addf (Host.dotGeneral (F := Ideal) Dh none A1 W1) (Host.dotGeneral (F := Ideal) Dh none A2 W2))
        (broadcastInDim ⟨2, ![N, C]⟩ ![0, 1] hbi Brow) (ix2 P q) := by
  rw [addf_apply, addf_apply, addf_apply, addf_apply,
    block_dot_apply Dk klc krc kln krn klb krb Dh hlc hrc hln hrn hlb hrb none none a1 w1 A1 W1 p P q h1 hw1,
    block_dot_apply Dk klc krc kln krn klb krb Dh hlc hrc hln hrn hlb hrb none none a2 w2 A2 W2 p P q h2 hw2,
    broadcastTo_1b_ab_apply, Cert.LibColumn.bcastInDim_1b_ab_apply, hb]

/-- The same layer followed by the rectifier: the maximum with zero is entrywise, and the kernel's splat of the zero
    word and the host's broadcast of the zero constant both read zero everywhere. -/
theorem gconv_relu_block_apply {φ₁ φ₂ φ₃ φ₄ : FTy}
    (a1 : FVec Ideal ⟨2, ![R, K]⟩ φ₁) (w1 : FVec Ideal ⟨2, ![K, C]⟩ φ₂)
    (a2 : FVec Ideal ⟨2, ![R, K]⟩ φ₃) (w2 : FVec Ideal ⟨2, ![K, C]⟩ φ₄)
    (brow : FVec Ideal ⟨2, ![1, C]⟩ .f32) (hbc : (⟨2, ![1, C]⟩ : Shape).Broadcasts ⟨2, ![R, C]⟩)
    (A1 A2 : FVec Ideal ⟨2, ![N, K]⟩ .f32) (W1 W2 : FVec Ideal ⟨2, ![K, C]⟩ .f32)
    (Brow : FVec Ideal ⟨2, ![1, C]⟩ .f32)
    (hbi : (⟨2, ![1, C]⟩ : Shape).BroadcastsInDim ⟨2, ![N, C]⟩ ![0, 1])
    (hbs : (⟨0, ![]⟩ : Shape).BroadcastsInDim ⟨2, ![N, C]⟩ (![] : Fin 0 → Fin 2))
    (p : Fin R) (P : Fin N) (q : Fin C)
    (h1 : ∀ k : Fin K, (a1 (ix2 p k) : EReal) = A1 (ix2 P k))
    (hw1 : ∀ k : Fin K, (w1 (ix2 k q) : EReal) = W1 (ix2 k q))
    (h2 : ∀ k : Fin K, (a2 (ix2 p k) : EReal) = A2 (ix2 P k))
    (hw2 : ∀ k : Fin K, (w2 (ix2 k q) : EReal) = W2 (ix2 k q))
    (hb : brow (ix2 (0 : Fin 1) q) = Brow (ix2 (0 : Fin 1) q)) :
    maximumf (addf (addf (matmul Dk none a1 w1 (constant (F := Ideal) ⟨2, ![R, C]⟩ .f32 0x00000000#32))
        (matmul Dk none a2 w2 (constant (F := Ideal) ⟨2, ![R, C]⟩ .f32 0x00000000#32)))
      (broadcastTo ⟨2, ![R, C]⟩ brow hbc))
      (broadcast ⟨2, ![R, C]⟩ (Scalar.ofBits (F := Ideal) .f32 0x00000000#32)) (ix2 p q)
    = maximumf (addf (addf (Host.dotGeneral (F := Ideal) Dh none A1 W1) (Host.dotGeneral (F := Ideal) Dh none A2 W2))
        (broadcastInDim ⟨2, ![N, C]⟩ ![0, 1] hbi Brow))
        (broadcastInDim ⟨2, ![N, C]⟩ ![] hbs (constant (F := Ideal) ⟨0, ![]⟩ .f32 0x00000000#32)) (ix2 P q) := by
  rw [maximumf_apply, maximumf_apply,
    gconv_block_apply Dk klc krc kln krn klb krb Dh hlc hrc hln hrn hlb hrb a1 w1 a2 w2 brow hbc A1 A2 W1 W2 Brow hbi
      p P q h1 hw1 h2 hw2 hb,
    broadcast_apply, Cert.LibColumn.bcastInDim_scalar_apply _ _ _ (fun d => d.elim0)]
  rfl

/-- A linear layer X · W + b on a row block, at (p, q), is the host's layer on the whole arrays at (P, q). -/
theorem linear_block_apply {φ₁ φ₂ : FTy}
    (a : FVec Ideal ⟨2, ![R, K]⟩ φ₁) (w : FVec Ideal ⟨2, ![K, C]⟩ φ₂)
    (brow : FVec Ideal ⟨2, ![1, C]⟩ .f32) (hbc : (⟨2, ![1, C]⟩ : Shape).Broadcasts ⟨2, ![R, C]⟩)
    (A : FVec Ideal ⟨2, ![N, K]⟩ .f32) (W : FVec Ideal ⟨2, ![K, C]⟩ .f32)
    (Brow : FVec Ideal ⟨2, ![1, C]⟩ .f32)
    (hbi : (⟨2, ![1, C]⟩ : Shape).BroadcastsInDim ⟨2, ![N, C]⟩ ![0, 1])
    (p : Fin R) (P : Fin N) (q : Fin C)
    (ha : ∀ k : Fin K, (a (ix2 p k) : EReal) = A (ix2 P k))
    (hw : ∀ k : Fin K, (w (ix2 k q) : EReal) = W (ix2 k q))
    (hb : brow (ix2 (0 : Fin 1) q) = Brow (ix2 (0 : Fin 1) q)) :
    addf (matmul Dk none a w (constant (F := Ideal) ⟨2, ![R, C]⟩ .f32 0x00000000#32))
      (broadcastTo ⟨2, ![R, C]⟩ brow hbc) (ix2 p q)
    = addf (Host.dotGeneral (F := Ideal) Dh none A W) (broadcastInDim ⟨2, ![N, C]⟩ ![0, 1] hbi Brow) (ix2 P q) := by
  rw [addf_apply, addf_apply,
    block_dot_apply Dk klc krc kln krn klb krb Dh hlc hrc hln hrn hlb hrb none none a w A W p P q ha hw,
    broadcastTo_1b_ab_apply, Cert.LibColumn.bcastInDim_1b_ab_apply, hb]

end

end Cert.LibLayer

end
-- ==== Proof.RefValue.lean ====
/-
  The reference program's result is the reference arrangement of the specification.

  The reference program builds, from the edge array, a column of source indices and a column of target indices,
  and then twice: gathers the node features' rows at the sources, scatter-adds them at the targets, counts the edges
  delivered to each node by scatter-adding ones, divides the summed messages by the count clamped below by one,
  multiplies by one weight array, adds the node's own features times a second weight array and a bias row; the first
  layer ends in a maximum with zero. Read entry by entry on the extended reals this is the specification's
  reference arrangement: each step below reads one of these arrays at explicit coordinates.
-/
import proofs.«100753_j39170101740217_2_alg».proof.Proof.Gen.ReferenceIdeal.Read
import proofs.«100753_j39170101740217_2_alg».proof.Proof.Spec
import proofs.«100753_j39170101740217_2_alg».proof.Proof.LibRowScatter
import proofs.«100753_j39170101740217_2_alg».proof.Proof.LibColumn
import proofs.«100753_j39170101740217_2_alg».proof.Proof.LibLayer

noncomputable section

open scoped BigOperators

namespace Cert.ReferenceIdeal.RefValue

open Cert.ReferenceIdeal Cert.ReferenceIdeal.Read Idealize.ShloMosaic Idealize.ShloMosaic.ValueIdx
open Cert.LibRowScatter Cert.LibColumn

/-! ## The index columns and the count are built once and named several times -/

theorem v16_eq (x1 : (⟨S2x800000, .i32⟩ : BufTy).Contents (Elt Ideal)) :
    val_main_v16 (F := Ideal) x1 = val_main_v12 (F := Ideal) x1 := rfl
theorem v38_eq (x1 : (⟨S2x800000, .i32⟩ : BufTy).Contents (Elt Ideal)) :
    val_main_v38 (F := Ideal) x1 = val_main_v12 (F := Ideal) x1 := rfl
theorem v42_eq (x1 : (⟨S2x800000, .i32⟩ : BufTy).Contents (Elt Ideal)) :
    val_main_v42 (F := Ideal) x1 = val_main_v12 (F := Ideal) x1 := rfl
theorem v35_eq (x1 : (⟨S2x800000, .i32⟩ : BufTy).Contents (Elt Ideal)) :
    val_main_v35 (F := Ideal) x1 = val_main_v9 (F := Ideal) x1 := rfl
theorem v43_eq (x1 : (⟨S2x800000, .i32⟩ : BufTy).Contents (Elt Ideal)) :
    val_main_v43 (F := Ideal) x1 = val_main_v17 (F := Ideal) x1 := rfl

/-! ## The count -/

/-- The number of edges delivered to node i, as the program counts it. -/
theorem v17_apply (x1 : (⟨S2x800000, .i32⟩ : BufTy).Contents (Elt Ideal)) (i : Fin 50000) :
    val_main_v17 (F := Ideal) x1 (ix1 i) = Cert.Sage.cnt (val_main_v12 (F := Ideal) x1) i := by
  unfold val_main_v17
  rw [vecScatterAdd_apply _ rfl rfl rfl rfl, v16_eq]
  rw [val_main_v15_apply, val_main_cst_2_apply, Ideal.ofBits_def]
  have hu : ∀ e : Fin 800000, val_main_v14 (F := Ideal) (ix1 e) = Cert.Sage.oneW := fun e => by
    rw [val_main_v14_apply, val_main_cst_1_apply, Ideal.ofBits_def]
  simp only [hu]
  unfold Cert.Sage.cnt Cert.Sage.inEdges
  rfl

/-- The count clamped below by one. -/
theorem v19_apply (x1 : (⟨S2x800000, .i32⟩ : BufTy).Contents (Elt Ideal)) (i : Fin 50000) :
    val_main_v19 (F := Ideal) x1 (ix1 i) = Cert.Sage.cmax (val_main_v12 (F := Ideal) x1) i := by
  unfold val_main_v19
  rw [maximumf_apply, v17_apply, val_main_v18_apply, val_main_cst_3_apply, Ideal.ofBits_def]
  unfold Cert.Sage.cmax
  rfl

/-- The clamped count, repeated along the 96 feature columns. -/
theorem v21_apply (x1 : (⟨S2x800000, .i32⟩ : BufTy).Contents (Elt Ideal)) (i : Fin 50000) (k : Fin 96) :
    val_main_v21 (F := Ideal) x1 (ix2 i k) = Cert.Sage.cmax (val_main_v12 (F := Ideal) x1) i := by
  unfold val_main_v21
  rw [bcastInDim_a1_ab_apply]
  unfold val_main_v20
  rw [bcastInDim_a_a1_apply, v19_apply]

/-- The second layer names the same clamped count again. -/
theorem v45_eq (x1 : (⟨S2x800000, .i32⟩ : BufTy).Contents (Elt Ideal)) :
    val_main_v45 (F := Ideal) x1 = val_main_v19 (F := Ideal) x1 := rfl

/-- The clamped count of the second layer, repeated along the 64 feature columns. -/
theorem v47_apply (x1 : (⟨S2x800000, .i32⟩ : BufTy).Contents (Elt Ideal)) (i : Fin 50000) (k : Fin 64) :
    val_main_v47 (F := Ideal) x1 (ix2 i k) = Cert.Sage.cmax (val_main_v12 (F := Ideal) x1) i := by
  unfold val_main_v47
  rw [bcastInDim_a1_ab_apply]
  unfold val_main_v46
  rw [bcastInDim_a_a1_apply, v45_eq, v19_apply]

/-! ## The summed messages -/

/-- The first layer's summed messages at (i, k): zero plus the features' column k at the source of every edge
    delivered to i. -/
theorem v13_apply (x0 : (⟨S50000x96, .f32⟩ : BufTy).Contents (Elt Ideal)) (x1 : (⟨S2x800000, .i32⟩ : BufTy).Contents (Elt Ideal))
    (i : Fin 50000) (k : Fin 96) :
    val_main_v13 (F := Ideal) x0 x1 (ix2 i k)
      = Cert.Sage.aggSum (val_main_v9 (F := Ideal) x1) (val_main_v12 (F := Ideal) x1) (fun n => x0 (ix2 n k)) i := by
  unfold val_main_v13
  rw [rowScatterAdd_apply _ rfl rfl rfl rfl]
  rw [val_main_v11_apply, val_main_cst_apply, Ideal.ofBits_def]
  have hg : ∀ e : Fin 800000, val_main_v10 (F := Ideal) x0 x1 (ix2 e k)
      = x0 (ix2 (gatherRow (N := 50000) (by decide) (val_main_v9 (F := Ideal) x1) e) k) := fun e => by
    unfold val_main_v10
    exact rowGather_apply _ _ rfl rfl rfl rfl rfl rfl rfl x0 _ e k
  simp only [hg]
  unfold Cert.Sage.aggSum Cert.Sage.inEdges Cert.Sage.srcOf
  rfl

/-! ## The hidden layer -/

/-- The first layer's summed messages divided by the clamped count. -/
theorem v22_apply (x0 : (⟨S50000x96, .f32⟩ : BufTy).Contents (Elt Ideal)) (x1 : (⟨S2x800000, .i32⟩ : BufTy).Contents (Elt Ideal))
    (i : Fin 50000) (k : Fin 96) :
    val_main_v22 (F := Ideal) x0 x1 (ix2 i k)
      = Ideal.div (Cert.Sage.aggSum (val_main_v9 (F := Ideal) x1) (val_main_v12 (F := Ideal) x1) (fun n => x0 (ix2 n k)) i)
          (Cert.Sage.cmax (val_main_v12 (F := Ideal) x1) i) := by
  rw [val_main_v22_apply, Ideal.hostDivf_def, v13_apply, v21_apply]

/-- The divided messages times the first weight array. -/
theorem v23_apply (x0 : (⟨S50000x96, .f32⟩ : BufTy).Contents (Elt Ideal)) (x1 : (⟨S2x800000, .i32⟩ : BufTy).Contents (Elt Ideal))
    (x2 : (⟨S96x64, .f32⟩ : BufTy).Contents (Elt Ideal)) (i : Fin 50000) (q : Fin 64) :
    val_main_v23 (F := Ideal) x0 x1 x2 (ix2 i q)
      = ∑ k : Fin 96, val_main_v22 (F := Ideal) x0 x1 (ix2 i k) * x2 (ix2 k q) := by
  unfold val_main_v23
  exact Cert.LibLayer.hostDot_record_apply (φ₁ := .f32) (φ₂ := .f32) _ rfl rfl rfl rfl rfl rfl none _ _ i q

/-- The node's own features times the second weight array. -/
theorem v24_apply (x0 : (⟨S50000x96, .f32⟩ : BufTy).Contents (Elt Ideal)) (x3 : (⟨S96x64, .f32⟩ : BufTy).Contents (Elt Ideal))
    (i : Fin 50000) (q : Fin 64) :
    val_main_v24 (F := Ideal) x0 x3 (ix2 i q) = ∑ k : Fin 96, x0 (ix2 i k) * x3 (ix2 k q) := by
  unfold val_main_v24
  exact Cert.LibLayer.hostDot_record_apply (φ₁ := .f32) (φ₂ := .f32) _ rfl rfl rfl rfl rfl rfl none _ _ i q

/-- The first bias row repeated down the rows. -/
theorem v27_apply (x4 : (⟨S64, .f32⟩ : BufTy).Contents (Elt Ideal)) (i : Fin 50000) (q : Fin 64) :
    val_main_v27 (F := Ideal) x4 (ix2 i q) = x4 (ix1 q) := by
  unfold val_main_v27
  rw [bcastInDim_1b_ab_apply]
  unfold val_main_v26
  rw [bcastInDim_b_1b_apply]

/-- The rectifier's zero array. -/
theorem call0_v0_apply (i : Fin 50000) (q : Fin 64) :
    val_main_call0_v0 (F := Ideal) (ix2 i q) = Cert.Sage.zeroW := by
  rw [val_main_call0_v0_apply, val_main_call0_cst_apply, Ideal.ofBits_def]

/-- The hidden features at (i, q) are the specification's reference hidden layer. -/
theorem v29_apply (x0 : (⟨S50000x96, .f32⟩ : BufTy).Contents (Elt Ideal)) (x1 : (⟨S2x800000, .i32⟩ : BufTy).Contents (Elt Ideal))
    (x2 x3 : (⟨S96x64, .f32⟩ : BufTy).Contents (Elt Ideal)) (x4 : (⟨S64, .f32⟩ : BufTy).Contents (Elt Ideal))
    (i : Fin 50000) (q : Fin 64) :
    val_main_v29 (F := Ideal) x0 x1 x2 x3 x4 (ix2 i q)
      = Cert.Sage.hR (val_main_v9 (F := Ideal) x1) (val_main_v12 (F := Ideal) x1) x0 x2 x3 x4 i q := by
  rw [val_main_v29_apply, val_main_v28_apply, val_main_v25_apply, Ideal.maximumf_def, Ideal.addf_def, Ideal.addf_def,
    v23_apply, v24_apply, v27_apply, call0_v0_apply]
  simp only [v22_apply]
  unfold Cert.Sage.hR
  rfl

/-! ## The output layer -/

/-- The second layer's summed messages at (i, k): zero plus the hidden features' column k at the source of every
    edge delivered to i. -/
theorem v39_apply (x0 : (⟨S50000x96, .f32⟩ : BufTy).Contents (Elt Ideal)) (x1 : (⟨S2x800000, .i32⟩ : BufTy).Contents (Elt Ideal))
    (x2 x3 : (⟨S96x64, .f32⟩ : BufTy).Contents (Elt Ideal)) (x4 : (⟨S64, .f32⟩ : BufTy).Contents (Elt Ideal))
    (i : Fin 50000) (k : Fin 64) :
    val_main_v39 (F := Ideal) x0 x1 x2 x3 x4 (ix2 i k)
      = Cert.Sage.aggSum (val_main_v9 (F := Ideal) x1) (val_main_v12 (F := Ideal) x1)
          (fun n => Cert.Sage.hR (val_main_v9 (F := Ideal) x1) (val_main_v12 (F := Ideal) x1) x0 x2 x3 x4 n k) i := by
  unfold val_main_v39
  rw [rowScatterAdd_apply _ rfl rfl rfl rfl, v38_eq]
  rw [val_main_v37_apply, val_main_cst_6_apply, Ideal.ofBits_def]
  have hg : ∀ e : Fin 800000, val_main_v36 (F := Ideal) x0 x1 x2 x3 x4 (ix2 e k)
      = Cert.Sage.hR (val_main_v9 (F := Ideal) x1) (val_main_v12 (F := Ideal) x1) x0 x2 x3 x4
          (gatherRow (N := 50000) (by decide) (val_main_v9 (F := Ideal) x1) e) k := fun e => by
    unfold val_main_v36
    rw [v35_eq, ← v29_apply]
    exact rowGather_apply _ _ rfl rfl rfl rfl rfl rfl rfl _ _ e k
  simp only [hg]
  unfold Cert.Sage.aggSum Cert.Sage.inEdges Cert.Sage.srcOf
  rfl

/-- The second layer's summed messages divided by the clamped count. -/
theorem v48_apply (x0 : (⟨S50000x96, .f32⟩ : BufTy).Contents (Elt Ideal)) (x1 : (⟨S2x800000, .i32⟩ : BufTy).Contents (Elt Ideal))
    (x2 x3 : (⟨S96x64, .f32⟩ : BufTy).Contents (Elt Ideal)) (x4 : (⟨S64, .f32⟩ : BufTy).Contents (Elt Ideal))
    (i : Fin 50000) (k : Fin 64) :
    val_main_v48 (F := Ideal) x0 x1 x2 x3 x4 (ix2 i k)
      = Ideal.div (Cert.Sage.aggSum (val_main_v9 (F := Ideal) x1) (val_main_v12 (F := Ideal) x1)
            (fun n => Cert.Sage.hR (val_main_v9 (F := Ideal) x1) (val_main_v12 (F := Ideal) x1) x0 x2 x3 x4 n k) i)
          (Cert.Sage.cmax (val_main_v12 (F := Ideal) x1) i) := by
  rw [val_main_v48_apply, Ideal.hostDivf_def, v39_apply, v47_apply]

/-- The divided messages times the third weight array. -/
theorem v49_apply (x0 : (⟨S50000x96, .f32⟩ : BufTy).Contents (Elt Ideal)) (x1 : (⟨S2x800000, .i32⟩ : BufTy).Contents (Elt Ideal))
    (x2 x3 : (⟨S96x64, .f32⟩ : BufTy).Contents (Elt Ideal)) (x4 : (⟨S64, .f32⟩ : BufTy).Contents (Elt Ideal))
    (x5 : (⟨S64x64, .f32⟩ : BufTy).Contents (Elt Ideal)) (i : Fin 50000) (q : Fin 64) :
    val_main_v49 (F := Ideal) x0 x1 x2 x3 x4 x5 (ix2 i q)
      = ∑ k : Fin 64, val_main_v48 (F := Ideal) x0 x1 x2 x3 x4 (ix2 i k) * x5 (ix2 k q) := by
  unfold val_main_v49
  exact Cert.LibLayer.hostDot_record_apply (φ₁ := .f32) (φ₂ := .f32) _ rfl rfl rfl rfl rfl rfl none _ _ i q

/-- The node's own hidden features times the fourth weight array. -/
theorem v50_apply (x0 : (⟨S50000x96, .f32⟩ : BufTy).Contents (Elt Ideal)) (x1 : (⟨S2x800000, .i32⟩ : BufTy).Contents (Elt Ideal))
    (x2 x3 : (⟨S96x64, .f32⟩ : BufTy).Contents (Elt Ideal)) (x4 : (⟨S64, .f32⟩ : BufTy).Contents (Elt Ideal))
    (x6 : (⟨S64x64, .f32⟩ : BufTy).Contents (Elt Ideal)) (i : Fin 50000) (q : Fin 64) :
    val_main_v50 (F := Ideal) x0 x1 x2 x3 x4 x6 (ix2 i q)
      = ∑ k : Fin 64, val_main_v29 (F := Ideal) x0 x1 x2 x3 x4 (ix2 i k) * x6 (ix2 k q) := by
  unfold val_main_v50
  exact Cert.LibLayer.hostDot_record_apply (φ₁ := .f32) (φ₂ := .f32) _ rfl rfl rfl rfl rfl rfl none _ _ i q

/-- The second bias row repeated down the rows. -/
theorem v53_apply (x7 : (⟨S64, .f32⟩ : BufTy).Contents (Elt Ideal)) (i : Fin 50000) (q : Fin 64) :
    val_main_v53 (F := Ideal) x7 (ix2 i q) = x7 (ix1 q) := by
  unfold val_main_v53
  rw [bcastInDim_1b_ab_apply]
  unfold val_main_v52
  rw [bcastInDim_b_1b_apply]

/-! ## The result -/

/-- The reference program's result is the specification's reference arrangement over the program's own source and
    target index columns. -/
theorem result_eq (x0 : (⟨S50000x96, .f32⟩ : BufTy).Contents (Elt Ideal)) (x1 : (⟨S2x800000, .i32⟩ : BufTy).Contents (Elt Ideal))
    (x2 x3 : (⟨S96x64, .f32⟩ : BufTy).Contents (Elt Ideal)) (x4 : (⟨S64, .f32⟩ : BufTy).Contents (Elt Ideal))
    (x5 x6 : (⟨S64x64, .f32⟩ : BufTy).Contents (Elt Ideal)) (x7 : (⟨S64, .f32⟩ : BufTy).Contents (Elt Ideal)) :
    val_main_v54 (F := Ideal) x0 x1 x2 x3 x4 x5 x6 x7
      = Cert.Sage.outR (val_main_v9 (F := Ideal) x1) (val_main_v12 (F := Ideal) x1) x0 x2 x3 x4 x5 x6 x7 := by
  funext j
  obtain ⟨i, q, rfl⟩ : ∃ (i : Fin 50000) (q : Fin 64), j = ix2 i q := ⟨j 0, j 1, eq_ix2 j⟩
  rw [Cert.Sage.outR_apply]
  rw [val_main_v54_apply, val_main_v51_apply, Ideal.addf_def, Ideal.addf_def, v49_apply, v50_apply, v53_apply]
  simp only [v48_apply, v29_apply]
  unfold Cert.Sage.outOfR
  rfl

end Cert.ReferenceIdeal.RefValue

end
-- ==== Proof.lean ====
/-
  A two-layer mean-aggregating graph convolution: the tiled kernel against its plain reference, on the extended reals.

  Both programs send node features x [50000, 96], an edge array [2, 800000] and two layers of weights to
  layer2 (relu (layer1 x)), where a layer is (mean over the edges delivered to a node of the features at the edges'
  sources) · Wl + features · Wr + b and the mean divides by the number of delivered edges clamped below by one.
  The reference gathers, scatter-adds, divides and multiplies in that order. The kernel counts the edges once, keeps
  the reciprocal of the clamped count, and runs three tiled launches: x · Wl1 and x · Wr1 + b1 first, so that the
  first layer's messages are gathered already transformed; then the rectified combination; then the second layer with
  both products fused. On the extended reals a change of float format is the identity and a block-by-block product is
  the whole product, so each program's result is one index-by-index function of the arguments; the two functions
  differ by "divide by c" against "multiply by 1 / c" (equal for the real c ≥ 1) and, in the first layer, by
  transforming before or after the sum over edges (equal by exchanging two finite sums when the features and the first
  neighbour weights are real numbers, which the precondition gives). The frames are the generated ones; the
  idealization rewrote nothing, so there is nothing to preserve.
-/
import proofs.«100753_j39170101740217_2_alg».proof.Defs
import proofs.«100753_j39170101740217_2_alg».proof.Proof.Gen.Kernel
import proofs.«100753_j39170101740217_2_alg».proof.Proof.Gen.Kernel.Skeleton
import proofs.«100753_j39170101740217_2_alg».proof.Proof.Gen.Kernel.Launch
import proofs.«100753_j39170101740217_2_alg».proof.Proof.Gen.Kernel.Points
import proofs.«100753_j39170101740217_2_alg».proof.Proof.Gen.Kernel.Frame
import proofs.«100753_j39170101740217_2_alg».proof.Proof.Gen.KernelIdeal
import proofs.«100753_j39170101740217_2_alg».proof.Proof.Gen.KernelIdeal.Skeleton
import proofs.«100753_j39170101740217_2_alg».proof.Proof.Gen.KernelIdeal.Launch
import proofs.«100753_j39170101740217_2_alg».proof.Proof.Gen.KernelIdeal.Points
import proofs.«100753_j39170101740217_2_alg».proof.Proof.Gen.KernelIdeal.Frame
import proofs.«100753_j39170101740217_2_alg».proof.Proof.Gen.ReferenceIdeal
import proofs.«100753_j39170101740217_2_alg».proof.Proof.Gen.Pre_finite_inputs
import proofs.«100753_j39170101740217_2_alg».proof.Proof.Gen.ReferenceIdeal.Run
import proofs.«100753_j39170101740217_2_alg».proof.Proof.Gen.ReferenceIdeal.Read
import proofs.«100753_j39170101740217_2_alg».proof.Proof.KernelRun
import proofs.«100753_j39170101740217_2_alg».proof.Proof.KernelValue
import proofs.«100753_j39170101740217_2_alg».proof.Proof.Algebra
import proofs.«100753_j39170101740217_2_alg».proof.Proof.Finite
import proofs.«100753_j39170101740217_2_alg».proof.Proof.Bridge
import proofs.«100753_j39170101740217_2_alg».proof.Proof.RefValue
import Idealize.ShloMosaic.Adequacy
import Idealize.ShloMosaic.Init

set_option maxRecDepth 16384

noncomputable section

namespace Cert.Proof

open Idealize.ShloMosaic Idealize.ShloMosaic.TcCoe Idealize.SL.Sem

section
variable [hKernel : Cert.Kernel.Facts] [hKernelIdeal : Cert.KernelIdeal.Facts] [hReferenceIdeal : Cert.ReferenceIdeal.Facts]
  [hPre : Cert.Pre_finite_inputs.Facts]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both runs end with the result array at the kernel's term of the (agreeing) arguments: the kernel's by its run read
    at the last boundary, the reference's because its term is the reference arrangement, which is the kernel
    arrangement on real features and first weights. -/
theorem algebraic : Cert.algebraic_KernelIdeal_ReferenceIdeal := by
  intro m ρ m' ρ' hpre hagree
  refine ⟨fun c => Cert.KernelIdeal.Chain.res m c, ?_, ?_⟩
  · exact (θ_run Cert.KernelIdeal.defs _ _).mono
      (fun r h c => ⟨(h c).1.trans (Cert.KernelIdeal.Chain.last_eq m ρ c), (h c).2⟩)
      (Cert.KernelIdeal.RunValue.run_last m ρ)
  · refine (θ_run Cert.ReferenceIdeal.defs _ _).mono (fun r h c => ⟨(h c).1.trans ?_, (h c).2⟩)
      (Cert.ReferenceIdeal.Value.run (F := Ideal) m' ρ')
    obtain ⟨hX, hW⟩ := Cert.Finite.reals_of_pre _ _ _ _ _ _ _ _ (hpre c)
    obtain ⟨a0, a1, a2, a3, a4, a5, a6, a7⟩ := hagree c
    show _ = Cert.KernelIdeal.Chain.res m c
    rw [Cert.ReferenceIdeal.Read.val_main_v54_eq, Cert.ReferenceIdeal.RefValue.result_eq, a0, a1, a2, a3, a4, a5, a6, a7,
      Cert.KernelIdeal.KValue.res_eq, Cert.Bridge.src_eq, Cert.Bridge.tgt_eq]
    exact (Cert.Sage.outK_eq_outR _ _ _ _ _ _ _ _ _ hX hW).symm

end

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
